-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x64 : Shape := ⟨2, ![64, 64]⟩
abbrev S64 : Shape := ⟨1, ![64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S64x64 .f32) (main_arg8 : FVec F S64 .f32) (main_arg9 : FVec F S64 .f32) (main_arg10 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S64x64 .f32) (main_arg5 : FVec F S64x64 .f32) (main_arg6 : FVec F S64x64 .f32) (main_arg7 : FVec F S64x64 .f32) (main_arg8 : FVec F S64 .f32) (main_arg9 : FVec F S64 .f32) (main_arg10 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1048576x64 .f32) (main_arg1 : FVec F S1048576x64 .f32) (main_arg2 : FVec F S64x64 .f32) (main_arg3 : FVec F S64x64 .f32) (main_arg4 : FVec F S64x64 .f32) (main_arg5 : FVec F S64x64 .f32) (main_arg6 : FVec F S64x64 .f32) (main_arg7 : FVec F S64x64 .f32) (main_arg8 : FVec F S64 .f32) (main_arg9 : FVec F S64 .f32) (main_arg10 : FVec F S64 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576x64 .f32 := Host.absf main_arg1
  let main_cst_0 : FVec F S_ .f32 := constant S_ .f32 0x7F800000#32
  let main_v5 : FVec F S1048576x64 .f32 := broadcastInDim S1048576x64 ![] bcast_S_S1048576x64 main_cst_0
  let main_v6 : IVec S1048576x64 1 := cmpf .olt main_v4 main_v5
  let main_c_1 : IVec S_ 1 := constantI S_ 1 1#1
  let main_v7 : IVec S_ 1 := (fun x v => Host.reduce IntOp.andi x v reducesTo_S1048576x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_v13 main_v16
-- ==== Kernel.lean ====
abbrev S1048576x64 : Shape := ⟨2, ![1048576, 64]⟩
abbrev S64x64 : Shape := ⟨2, ![64, 64]⟩
abbrev S64 : Shape := ⟨1, ![64]⟩
abbrev S262144x256 : Shape := ⟨2, ![262144, 256]⟩
abbrev S_ : Shape := ⟨0, ![]⟩
abbrev S64x256 : Shape := ⟨2, ![64, 256]⟩
abbrev S256x256 : Shape := ⟨2, ![256, 256]⟩
abbrev S1x64 : Shape := ⟨2, ![1, 64]⟩
abbrev S1x1x1x64 : Shape := ⟨4, ![1, 1, 1, 64]⟩
abbrev S1x1x4x64 : Shape := ⟨4, ![1, 1, 4, 64]⟩
abbrev S1x256 : Shape := ⟨2, ![1, 256]⟩
abbrev S8192x256 : Shape := ⟨2, ![8192, 256]⟩

abbrev nBuf : Space → Nat
  | .hbm => 75
  | .vmem => 15
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S262144x256, .f32⟩
  | .hbm, ⟨12, _⟩ => ⟨S262144x256, .f32⟩
  | .hbm, ⟨13, _⟩ => ⟨S64x64, .bf16⟩
  | .hbm, ⟨14, _⟩ => ⟨S_, .bf16⟩
  | .hbm, ⟨15, _⟩ => ⟨S64x64, .bf16⟩
  | .hbm, ⟨16, _⟩ => ⟨S64x256, .bf16⟩
  | .hbm, ⟨17, _⟩ => ⟨S64x256, .bf16⟩
  | .hbm, ⟨18, _⟩ => ⟨S64x256, .bf16⟩
  | .hbm, ⟨19, _⟩ => ⟨S64x256, .bf16⟩
  | .hbm, ⟨20, _⟩ => ⟨S256x256, .bf16⟩
  | .hbm, ⟨21, _⟩ => ⟨S64x64, .bf16⟩
  | .hbm, ⟨22, _⟩ => ⟨S_, .bf16⟩
  | .hbm, ⟨23, _⟩ => ⟨S64x64, .bf16⟩
  | .hbm, ⟨24, _⟩ => ⟨S64x256, .bf16⟩
  | .hbm, ⟨25, _⟩ => ⟨S64x256, .bf16⟩
  | .hbm, ⟨26, _⟩ => ⟨S64x256, .bf16⟩
  | .hbm, ⟨27, _⟩ => ⟨S64x256, .bf16⟩
  | .hbm, ⟨28, _⟩ => ⟨S256x256, .bf16⟩
  | .hbm, ⟨29, _⟩ => ⟨S64x64, .bf16⟩
  | .hbm, ⟨30, _⟩ => ⟨S_, .bf16⟩
  | .hbm, ⟨31, _⟩ => ⟨S64x64, .bf16⟩
  | .hbm, ⟨32, _⟩ => ⟨S64x256, .bf16⟩
  | .hbm, ⟨33, _⟩ => ⟨S64x256, .bf16⟩
  | .hbm, ⟨34, _⟩ => ⟨S64x256, .bf16⟩
  | .hbm, ⟨35, _⟩ => ⟨S64x256, .bf16⟩
  | .hbm, ⟨36, _⟩ => ⟨S256x256, .bf16⟩
  | .hbm, ⟨37, _⟩ => ⟨S64x64, .bf16⟩
  | .hbm, ⟨38, _⟩ => ⟨S_, .bf16⟩
  | .hbm, ⟨39, _⟩ => ⟨S64x64, .bf16⟩
  | .hbm, ⟨40, _⟩ => ⟨S64x256, .bf16⟩
  | .hbm, ⟨41, _⟩ => ⟨S64x256, .bf16⟩
  | .hbm, ⟨42, _⟩ => ⟨S64x256, .bf16⟩
  | .hbm, ⟨43, _⟩ => ⟨S64x256, .bf16⟩
  | .hbm, ⟨44, _⟩ => ⟨S256x256, .bf16⟩
  | .hbm, ⟨45, _⟩ => ⟨S64x64, .bf16⟩
  | .hbm, ⟨46, _⟩ => ⟨S_, .bf16⟩
  | .hbm, ⟨47, _⟩ => ⟨S64x64, .bf16⟩
  | .hbm, ⟨48, _⟩ => ⟨S64x256, .bf16⟩
  | .hbm, ⟨49, _⟩ => ⟨S64x256, .bf16⟩
  | .hbm, ⟨50, _⟩ => ⟨S64x256, .bf16⟩
  | .hbm, ⟨51, _⟩ => ⟨S64x256, .bf16⟩
  | .hbm, ⟨52, _⟩ => ⟨S256x256, .bf16⟩
  | .hbm, ⟨53, _⟩ => ⟨S64x64, .bf16⟩
  | .hbm, ⟨54, _⟩ => ⟨S_, .bf16⟩
  | .hbm, ⟨55, _⟩ => ⟨S64x64, .bf16⟩
  | .hbm, ⟨56, _⟩ => ⟨S64x256, .bf16⟩
  | .hbm, ⟨57, _⟩ => ⟨S64x256, .bf16⟩
  | .hbm, ⟨58, _⟩ => ⟨S64x256, .bf16⟩
  | .hbm, ⟨59, _⟩ => ⟨S64x256, .bf16⟩
  | .hbm, ⟨60, _⟩ => ⟨S256x256, .bf16⟩
  | .hbm, ⟨61, _⟩ => ⟨S1x64, .f32⟩
  | .hbm, ⟨62, _⟩ => ⟨S1x1x1x64, .f32⟩
  | .hbm, ⟨63, _⟩ => ⟨S1x1x4x64, .f32⟩
  | .hbm, ⟨64, _⟩ => ⟨S1x256, .f32⟩
  | .hbm, ⟨65, _⟩ => ⟨S1x64, .f32⟩
  | .hbm, ⟨66, _⟩ => ⟨S1x1x1x64, .f32⟩
  | .hbm, ⟨67, _⟩ => ⟨S1x1x4x64, .f32⟩
  | .hbm, ⟨68, _⟩ => ⟨S1x256, .f32⟩
  | .hbm, ⟨69, _⟩ => ⟨S1x64, .f32⟩
  | .hbm, ⟨70, _⟩ => ⟨S1x1x1x64, .f32⟩
  | .hbm, ⟨71, _⟩ => ⟨S1x1x4x64, .f32⟩
  | .hbm, ⟨72, _⟩ => ⟨S1x256, .f32⟩
  | .hbm, ⟨73, _⟩ => ⟨S262144x256, .f32⟩
  | .hbm, ⟨74, _⟩ => ⟨S1048576x64, .f32⟩
  | .local _ .vmem, ⟨0, _⟩ => ⟨S8192x256, .f32⟩
  | .local _ .vmem, ⟨1, _⟩ => ⟨S8192x256, .f32⟩
  | .local _ .vmem, ⟨2, _⟩ => ⟨S8192x256, .f32⟩
  | .local _ .vmem, ⟨3, _⟩ => ⟨S8192x256, .f32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S8192x256, .f32⟩
  | .local _ .vmem, ⟨14, _⟩ => ⟨S8192x256, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8192x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S1048576x64_S262144x256 : S1048576x64.ShapeCasts S262144x256
  bitsLt_bf16_f32 : FTy.bits .bf16 < FTy.bits .f32
  bcast_S_S64x64 : S_.BroadcastsInDim S64x64 (![] : Fin 0 → Fin S64x64.rank)
  concatenates_S64x64_S64x64_S64x64_S64x64_S64x256_d1 : Shape.Concatenates [S64x64, S64x64, S64x64, S64x64] S64x256 1
  concatenates_S64x256_S64x256_S64x256_S64x256_S256x256_d0 : Shape.Concatenates [S64x256, S64x256, S64x256, S64x256] S256x256 0
  shapeCasts_S64_S1x64 : S64.ShapeCasts S1x64
  shapeCasts_S1x64_S1x1x1x64 : S1x64.ShapeCasts S1x1x1x64
  bcast_S1x1x1x64_S1x1x4x64_0_1_2_3 : S1x1x1x64.BroadcastsInDim S1x1x4x64 (![0, 1, 2, 3] : Fin 4 → Fin S1x1x4x64.rank)
  shapeCasts_S1x1x4x64_S1x256 : S1x1x4x64.ShapeCasts S1x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  shapeCasts_S262144x256_S1048576x64 : S262144x256.ShapeCasts S1048576x64
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S262144x256.size a
  hwx0_1 : ∀ i : grid0.Coords, EltTy.bits .f32 = 32 ∨ (Rect.block (s := S262144x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8192x256.size a ≤ S262144x256.size a
  hwx0_11 : ∀ i : grid0.Coords, EltTy.bits .f32 = 32 ∨ (Rect.block (s := S262144x256) S8192x256.size (cc0_transform_11 i) (hinb0_11 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_v0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v47) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v51) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v55) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v56) S8192x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x64 : Shape := ⟨2, ![64, 64]⟩
abbrev S64 : Shape := ⟨1, ![64]⟩
abbrev S1x64 : Shape := ⟨2, ![1, 64]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1048576x64, .f32⟩
  | .hbm, ⟨12, _⟩ => ⟨S1048576x64, .f32⟩
  | .hbm, ⟨13, _⟩ => ⟨S1048576x64, .f32⟩
  | .hbm, ⟨14, _⟩ => ⟨S1x64, .f32⟩
  | .hbm, ⟨15, _⟩ => ⟨S1048576x64, .f32⟩
  | .hbm, ⟨16, _⟩ => ⟨S1048576x64, .f32⟩
  | .hbm, ⟨17, _⟩ => ⟨S1048576x64, .f32⟩
  | .hbm, ⟨18, _⟩ => ⟨S1048576x64, .f32⟩
  | .hbm, ⟨19, _⟩ => ⟨S_, .f32⟩
  | .hbm, ⟨20, _⟩ => ⟨S1048576x64, .f32⟩
  | .hbm, ⟨21, _⟩ => ⟨S1048576x64, .f32⟩
  | .hbm, ⟨22, _⟩ => ⟨S_, .f32⟩
  | .hbm, ⟨23, _⟩ => ⟨S1048576x64, .f32⟩
  | .hbm, ⟨24, _⟩ => ⟨S1048576x64, .f32⟩
  | .hbm, ⟨25, _⟩ => ⟨S1048576x64, .f32⟩
  | .hbm, ⟨26, _⟩ => ⟨S1048576x64, .f32⟩
  | .hbm, ⟨27, _⟩ => ⟨S1048576x64, .f32⟩
  | .hbm, ⟨28, _⟩ => ⟨S1x64, .f32⟩
  | .hbm, ⟨29, _⟩ => ⟨S1048576x64, .f32⟩
  | .hbm, ⟨30, _⟩ => ⟨S1048576x64, .f32⟩
  | .hbm, ⟨31, _⟩ => ⟨S1048576x64, .f32⟩
  | .hbm, ⟨32, _⟩ => ⟨S1048576x64, .f32⟩
  | .hbm, ⟨33, _⟩ => ⟨S_, .f32⟩
  | .hbm, ⟨34, _⟩ => ⟨S1048576x64, .f32⟩
  | .hbm, ⟨35, _⟩ => ⟨S1048576x64, .f32⟩
  | .hbm, ⟨36, _⟩ => ⟨S_, .f32⟩
  | .hbm, ⟨37, _⟩ => ⟨S1048576x64, .f32⟩
  | .hbm, ⟨38, _⟩ => ⟨S1048576x64, .f32⟩
  | .hbm, ⟨39, _⟩ => ⟨S1048576x64, .f32⟩
  | .hbm, ⟨40, _⟩ => ⟨S1048576x64, .f32⟩
  | .hbm, ⟨41, _⟩ => ⟨S1048576x64, .f32⟩
  | .hbm, ⟨42, _⟩ => ⟨S1048576x64, .f32⟩
  | .hbm, ⟨43, _⟩ => ⟨S1x64, .f32⟩
  | .hbm, ⟨44, _⟩ => ⟨S1048576x64, .f32⟩
  | .hbm, ⟨45, _⟩ => ⟨S1048576x64, .f32⟩
  | .hbm, ⟨46, _⟩ => ⟨S1048576x64, .f32⟩
  | .hbm, ⟨47, _⟩ => ⟨S_, .f32⟩
  | .hbm, ⟨48, _⟩ => ⟨S1048576x64, .f32⟩
  | .hbm, ⟨49, _⟩ => ⟨S1048576x64, .f32⟩
  | .hbm, ⟨50, _⟩ => ⟨S1048576x64, .f32⟩
  | .hbm, ⟨51, _⟩ => ⟨S1048576x64, .f32⟩
  | .hbm, ⟨52, _⟩ => ⟨S1048576x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  dot_S1048576x64_S64x64_S1048576x64_1_0_0_1_n_n_wf : DotDims.WF S1048576x64 S64x64 S1048576x64 [1] [0] [0] [1] [] []

variable [Facts₀]

def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf

class Facts : Prop extends Facts₀ where

variable [Facts]
-- ==== Proof.BitsSides.lean ====
/-
  @main of the program around its one region. The 62 host operations before the region build, from the eleven
  arguments, the eleven arrays the region's input windows stage: the two row-major regroupings of 4 consecutive rows of 64
  into one row of 256, six 256×256 matrices each assembled from four row bands of four 64×64 blocks (the rounded weight
  on the diagonal, a zero block elsewhere), and three biases repeated four times along a row. One host operation after the
  region regroups the result back. Here: the arrays as the region finds them, that no host operation on either side
  writes an argument, each input window's block at a grid point, and the frame statement read off a run to the
  library's frame post.
-/
import proofs.«172371_j8151847928332_2_alg».proof.Proof.BitsLaunch
import proofs.«172371_j8151847928332_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

variable (m : (ℓ : Loc nD τ sig) → Buf (Elt F) ℓ) (ρ : Dev nD → PrngReg)

/-! ## @main around the region -/

/-- Core `c`'s buffer contents when the region is entered: the launch contents after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the one after it: it reduces to the region continued
    by the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches unscoped references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's arrays: its result is a buffer of its own. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 10 ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, its block
    index has not moved), for any proof data over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, its block
    index has not moved), for any proof data over the region-entry arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, its block
    index has not moved), for any proof data over the region-entry arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, its block
    index has not moved), for any proof data over the region-entry arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, its block
    index has not moved), for any proof data over the region-entry arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (unfetched, its block
    index has not moved), for any proof data over the region-entry arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (unfetched, its block
    index has not moved), for any proof data over the region-entry arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not (unfetched, its block
    index has not moved), for any proof data over the region-entry arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not (unfetched, its block
    index has not moved), for any proof data over the region-entry arrays whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not (unfetched, its block
    index has not moved), for any proof data over the region-entry arrays whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not (unfetched, its block
    index has not moved), for any proof data over the region-entry arrays whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run to the library's frame post -/

/-- For any proof data over the region-entry arrays, a run ending with every unscoped buffer that is no array of the
    region as the later host operation leaves it ends with the eleven arguments as launched: none is an array of the
    region, and no host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c)⟩) h

end Cert.Kernel.Fr

end
-- ==== Proof.BitsBody.lean ====
/-
  The kernel body at one grid point, on whole staging buffers. It loads the two 8192×256 row blocks, the six 256×256
  matrices and the three 1×256 bias rows, and stores ONE 8192×256 value over the whole output buffer: with
  r = σ(x·W_ir + h·W_hr + b_r), z = σ(x·W_iz + h·W_hz + b_z), n = tanh(x·W_in + (r ⊙ h)·W_hn + b_n), the stored value is
  (1 − z) ⊙ h + z ⊙ n (the products are 256-term contractions, σ the logistic function). The output buffer is also
  loaded once before the store; that value is not used.
-/
import proofs.«172371_j8151847928332_2_alg».proof.Proof.BitsSides
import proofs.«172371_j8151847928332_2_alg».proof.Proof.Gen.Kernel.Skeleton

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

/-! ## The body's accesses: each buffer whole -/

abbrev rX : Rect S8192x256 := Rect.unit (s := S8192x256) ![0, 0] S8192x256.size inb_S8192x256_S8192x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-- What the body leaves in the output window's buffer, from the eleven input blocks: its one store, of the gated blend
    of the loaded values, over the whole buffer. -/
def out0_11 (x0 : Vec F S8192x256 .f32) (x1 : Vec F S8192x256 .f32) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S1x256 .f32) (x9 : Vec F S1x256 .f32) (x10 : Vec F S1x256 .f32) : Vec F S8192x256 .f32 :=
  View.canon [⟨rX, k0_pay1 (k0_pay2 (View.ld x1 rX)) (k0_pay5 (View.ld x0 rX) (View.ld x1 rX) (View.ld x4 rW) (View.ld x5 rW) (View.ld x9 rB))
    (k0_pay6 (View.ld x0 rX) (View.ld x1 rX) (View.ld x2 rW) (View.ld x3 rW) (View.ld x8 rB)) (k0_pay7 (View.ld x0 rX) (View.ld x6 rW)) (View.ld x7 rW) (View.ld x10 rB)⟩]

/-- The one store covers the buffer. -/
theorem cover0_11 (p0 : Vec F S8192x256 .f32) (y : S8192x256.Idx) :
    ∃ pc ∈ ([⟨rX, p0⟩] : List (View.Piece (Elt F) S8192x256 .f32)), y ∈ pc.1.set :=
  View.cover_of_tiled [⟨rX, p0⟩] S8192x256.size (by rfl) y

/-! ## The body's triple -/

set_option maxHeartbeats 4000000 in
/-- The body, on whole staging buffers holding the eleven inputs at read contents and the output at anything, runs to the
    continuation with the inputs as they were and the output at `out0_11` of them. -/
theorem sound_kernel (c : Dev nD) (E : Set ℕ) (i : grid0.Coords) (arg1 : Memref sig .tc .vmem S8192x256 .f32) (harg1 : arg1.IsWhole) (arg2 : Memref sig .tc .vmem S8192x256 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S8192x256 .f32) (harg12 : arg12.IsWhole)
    (x0 : Vec F S8192x256 .f32) (x1 : Vec F S8192x256 .f32) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S1x256 .f32) (x9 : Vec F S1x256 .f32) (x10 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

end Cert.Kernel.Fr

end
-- ==== Proof.BitsRun.lean ====
/-
  The run of @main: the proof data of the one region (its arrays as the region finds them; after the body at a grid
  point each input buffer at its block and the output buffer at the body's stored value of the input blocks), the body's
  obligation at every grid point, the run to the library's frame post, and the frame statement.
-/
import proofs.«172371_j8151847928332_2_alg».proof.Proof.BitsBody

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and the
    output's at the stored value of the input blocks; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents (the definition projected, the host prefix never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the input buffers hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, for any values: every weakly fair execution of @main terminates, every array of
    the region ends at what the library computes from the proof data, and every other unscoped buffer as the host
    operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and leaves its eleven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Fr

end
-- ==== Proof.IdealSides.lean ====
/-
  @main of the program around its one region. The 62 host operations before the region build, from the eleven
  arguments, the eleven arrays the region's input windows stage: the two row-major regroupings of 4 consecutive rows of 64
  into one row of 256, six 256×256 matrices each assembled from four row bands of four 64×64 blocks (the rounded weight
  on the diagonal, a zero block elsewhere), and three biases repeated four times along a row. One host operation after the
  region regroups the result back. Here: the arrays as the region finds them, that no host operation on either side
  writes an argument, each input window's block at a grid point, and the frame statement read off a run to the
  library's frame post.
-/
import proofs.«172371_j8151847928332_2_alg».proof.Proof.IdealLaunch
import proofs.«172371_j8151847928332_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

variable (m : (ℓ : Loc nD τ sig) → Buf (Elt F) ℓ) (ρ : Dev nD → PrngReg)

/-! ## @main around the region -/

/-- Core `c`'s buffer contents when the region is entered: the launch contents after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the one after it: it reduces to the region continued
    by the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches unscoped references only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's arrays: its result is a buffer of its own. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 10 ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, its block
    index has not moved), for any proof data over the region-entry arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, its block
    index has not moved), for any proof data over the region-entry arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, its block
    index has not moved), for any proof data over the region-entry arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, its block
    index has not moved), for any proof data over the region-entry arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, its block
    index has not moved), for any proof data over the region-entry arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (unfetched, its block
    index has not moved), for any proof data over the region-entry arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (unfetched, its block
    index has not moved), for any proof data over the region-entry arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not (unfetched, its block
    index has not moved), for any proof data over the region-entry arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not (unfetched, its block
    index has not moved), for any proof data over the region-entry arrays whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not (unfetched, its block
    index has not moved), for any proof data over the region-entry arrays whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not (unfetched, its block
    index has not moved), for any proof data over the region-entry arrays whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run to the library's frame post -/

/-- For any proof data over the region-entry arrays, a run ending with every unscoped buffer that is no array of the
    region as the later host operation leaves it ends with the eleven arguments as launched: none is an array of the
    region, and no host operation writes one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c)⟩) h

end Cert.KernelIdeal.Fr

end
-- ==== Proof.IdealBody.lean ====
/-
  The kernel body at one grid point, on whole staging buffers. It loads the two 8192×256 row blocks, the six 256×256
  matrices and the three 1×256 bias rows, and stores ONE 8192×256 value over the whole output buffer: with
  r = σ(x·W_ir + h·W_hr + b_r), z = σ(x·W_iz + h·W_hz + b_z), n = tanh(x·W_in + (r ⊙ h)·W_hn + b_n), the stored value is
  (1 − z) ⊙ h + z ⊙ n (the products are 256-term contractions, σ the logistic function). The output buffer is also
  loaded once before the store; that value is not used.
-/
import proofs.«172371_j8151847928332_2_alg».proof.Proof.IdealSides
import proofs.«172371_j8151847928332_2_alg».proof.Proof.Gen.KernelIdeal.Skeleton

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

/-! ## The body's accesses: each buffer whole -/

abbrev rX : Rect S8192x256 := Rect.unit (s := S8192x256) ![0, 0] S8192x256.size inb_S8192x256_S8192x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-- What the body leaves in the output window's buffer, from the eleven input blocks: its one store, of the gated blend
    of the loaded values, over the whole buffer. -/
def out0_11 (x0 : Vec F S8192x256 .f32) (x1 : Vec F S8192x256 .f32) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S1x256 .f32) (x9 : Vec F S1x256 .f32) (x10 : Vec F S1x256 .f32) : Vec F S8192x256 .f32 :=
  View.canon [⟨rX, k0_pay1 (k0_pay2 (View.ld x1 rX)) (k0_pay5 (View.ld x0 rX) (View.ld x1 rX) (View.ld x4 rW) (View.ld x5 rW) (View.ld x9 rB))
    (k0_pay6 (View.ld x0 rX) (View.ld x1 rX) (View.ld x2 rW) (View.ld x3 rW) (View.ld x8 rB)) (k0_pay7 (View.ld x0 rX) (View.ld x6 rW)) (View.ld x7 rW) (View.ld x10 rB)⟩]

/-- The one store covers the buffer. -/
theorem cover0_11 (p0 : Vec F S8192x256 .f32) (y : S8192x256.Idx) :
    ∃ pc ∈ ([⟨rX, p0⟩] : List (View.Piece (Elt F) S8192x256 .f32)), y ∈ pc.1.set :=
  View.cover_of_tiled [⟨rX, p0⟩] S8192x256.size (by rfl) y

/-! ## The body's triple -/

set_option maxHeartbeats 4000000 in
/-- The body, on whole staging buffers holding the eleven inputs at read contents and the output at anything, runs to the
    continuation with the inputs as they were and the output at `out0_11` of them. -/
theorem sound_kernel (c : Dev nD) (E : Set ℕ) (i : grid0.Coords) (arg1 : Memref sig .tc .vmem S8192x256 .f32) (harg1 : arg1.IsWhole) (arg2 : Memref sig .tc .vmem S8192x256 .f32) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S8192x256 .f32) (harg12 : arg12.IsWhole)
    (x0 : Vec F S8192x256 .f32) (x1 : Vec F S8192x256 .f32) (x2 : Vec F S256x256 .bf16) (x3 : Vec F S256x256 .bf16) (x4 : Vec F S256x256 .bf16) (x5 : Vec F S256x256 .bf16) (x6 : Vec F S256x256 .bf16) (x7 : Vec F S256x256 .bf16) (x8 : Vec F S1x256 .f32) (x9 : Vec F S1x256 .f32) (x10 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

end Cert.KernelIdeal.Fr

end
-- ==== Proof.IdealRun.lean ====
/-
  The run of @main: the proof data of the one region (its arrays as the region finds them; after the body at a grid
  point each input buffer at its block and the output buffer at the body's stored value of the input blocks), the body's
  obligation at every grid point, the run to the library's frame post, and the frame statement.
-/
import proofs.«172371_j8151847928332_2_alg».proof.Proof.IdealBody

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and the
    output's at the stored value of the input blocks; the scoped rest untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents (the definition projected, the host prefix never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the input buffers hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, for any values: every weakly fair execution of @main terminates, every array of
    the region ends at what the library computes from the proof data, and every other unscoped buffer as the host
    operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and leaves its eleven arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Fr

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.GruSpec.lean ====
/-
  One step of a gated recurrent cell on 1,048,576 rows of width 64, as ONE function of the argument arrays, entry by entry
  on the extended reals. For row `p` and column `j`, with x, h the two inputs, six 64×64 weights and three biases,

    r = σ(x·W_ir + h·W_hr + b_r),  z = σ(x·W_iz + h·W_hz + b_z),  n = tanh(x·W_in + (r ⊙ h)·W_hn + b_n),
    result = (1 − z) ⊙ h + z ⊙ n,

  every product `a·W` the 64-term sum over `k` of `a (p, k) * W (k, j)`, σ the logistic function `1 / (1 + e^(−v))`, and the
  `1` of `1 − z` the extended real the float pattern of 1.0 denotes. Also here: that pattern is the number one, and the
  law that lets a 256-term sum against a matrix with one 64-row band of interest and zeros elsewhere shrink to that band.
-/
import Idealize.ShloMosaic.PureOps.Ideal
import Idealize.ShloMosaic.Lib.ValueIdx
import proofs.«172371_j8151847928332_2_alg».proof.Proof.LibChunkSum

noncomputable section

namespace Cert.GruSpec

open Idealize.ShloMosaic Idealize.ShloMosaic.ValueIdx

/-- The shapes of the arguments: the rows, a weight, a bias. -/
abbrev SRows : Shape := ⟨2, ![1048576, 64]⟩
abbrev SWeight : Shape := ⟨2, ![64, 64]⟩
abbrev SBias : Shape := ⟨1, ![64]⟩

/-- Column `64 s + j` of a row of 256: position `j` of the `s`-th of its four bands of 64. -/
def colOf (s : Fin 4) (j : Fin 64) : Fin 256 := ⟨64 * s.val + j.val, by have := s.isLt; have := j.isLt; omega⟩

/-- The float pattern of 1.0 denotes the number one. -/
theorem ofBits_one : Ideal.ofBits .f32 0x3F800000#32 = 1 := by
  simp [Ideal.ofBits, Ideal.ieee, -EReal.coe_mul]; norm_num

/-- Row `p` of `a` against column `j` of `W`: the 64-term sum. -/
def dot (a : SRows.Idx → EReal) (W : SWeight.Idx → EReal) (p : Fin 1048576) (j : Fin 64) : EReal :=
  ∑ k : Fin 64, a (ix2 p k) * W (ix2 k j)

/-- A gate before its nonlinearity: two products and a bias. -/
def pre (a b : SRows.Idx → EReal) (Wa Wb : SWeight.Idx → EReal) (bias : SBias.Idx → EReal) (p : Fin 1048576) (j : Fin 64) : EReal :=
  dot a Wa p j + dot b Wb p j + bias (ix1 j)

/-- The reset and update gates share one form. -/
def gate (x h : SRows.Idx → EReal) (Wi Wh : SWeight.Idx → EReal) (bias : SBias.Idx → EReal) (p : Fin 1048576) (j : Fin 64) : EReal :=
  Ideal.logistic (pre x h Wi Wh bias p j)

/-- The reset gate applied to the state, as an array of rows again. -/
def resetState (x h : SRows.Idx → EReal) (Wir Whr : SWeight.Idx → EReal) (br : SBias.Idx → EReal) : SRows.Idx → EReal :=
  fun i => gate x h Wir Whr br (i 0) (i 1) * h i

/-- The candidate state. -/
def cand (x h : SRows.Idx → EReal) (Wir Whr Win Whn : SWeight.Idx → EReal) (br bn : SBias.Idx → EReal) (p : Fin 1048576) (j : Fin 64) : EReal :=
  Ideal.tanh (pre x (resetState x h Wir Whr br) Win Whn bn p j)

/-- The new state at row `p`, column `j`. -/
def cellAt (x h : SRows.Idx → EReal) (Wir Whr Wiz Whz Win Whn : SWeight.Idx → EReal) (br bz bn : SBias.Idx → EReal)
    (p : Fin 1048576) (j : Fin 64) : EReal :=
  (Ideal.ofBits .f32 0x3F800000#32 - gate x h Wiz Whz bz p j) * h (ix2 p j)
    + gate x h Wiz Whz bz p j * cand x h Wir Whr Win Whn br bn p j

/-- The new state, as an array. -/
def cell (x h : SRows.Idx → EReal) (Wir Whr Wiz Whz Win Whn : SWeight.Idx → EReal) (br bz bn : SBias.Idx → EReal) : SRows.Idx → EReal :=
  fun i => cellAt x h Wir Whr Wiz Whz Win Whn br bz bn (i 0) (i 1)

/-- A 256-term sum whose terms vanish outside the band of 64 indices starting at `64 * s` is the sum over that band:
    the sum splits into four bands of 64, and three of them are sums of zeros. Only the monoid laws are used. -/
theorem sum_band (T : Fin (4 * 64) → EReal) (s : Fin 4) (col : Fin 4 → Fin 64 → Fin (4 * 64))
    (hcol : ∀ c j, (col c j).val = 64 * c.val + j.val) (hz : ∀ c j, c ≠ s → T (col c j) = 0) :
    ∑ i, T i = ∑ j : Fin 64, T (col s j) := by
  rw [Cert.LibChunkSum.sum_chunks 4 64 T col hcol]
  exact Finset.sum_eq_single s (fun c _ hc => Finset.sum_eq_zero fun j _ => hz c j hc) (fun h => absurd (Finset.mem_univ s) h)

end Cert.GruSpec

end
-- ==== Proof.IdealCellBlock.lean ====
/-
  One 8192×256 block of packed rows. A packed row holds four consecutive rows of 64 side by side, so column `64 s + j` of
  packed row `p` is column `j` of the row `4 p' + s` (`p'` the packed row's place in the whole array). The body multiplies a
  packed block by a 256×256 matrix that carries a 64×64 weight in each diagonal position and zeros elsewhere: at column
  `64 s + j` only the 64 terms of band `s` survive (a zero factor annihilates on the extended reals, at the infinities
  too), and they are the row's product with the weight. Everything else the body does is entry by entry, so the value it
  stores at (p, 64 s + j) is the cell at (row, j).
-/
import proofs.«172371_j8151847928332_2_alg».proof.Proof.Gen.KernelIdeal.Skeleton
import proofs.«172371_j8151847928332_2_alg».proof.Proof.GruSpec
import Idealize.ShloMosaic.PureOps.Ideal.Laws
import Idealize.ShloMosaic.Lib.ValueIdx
import Idealize.ShloMosaic.Lib.Pipeline.Value

noncomputable section

namespace Cert.KernelIdeal.Val

open Idealize.ShloMosaic Idealize.ShloMosaic.ValueIdx Cert.KernelIdeal Cert.KernelIdeal.Gen Cert.GruSpec

/-! ## The contraction's operand indices -/

theorem lhs_0 (i : S8192x256.Idx) (q : dot_S8192x256_S256x256_S8192x256_1_0_0_1_n_n.contr.Idx) : (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem lhs_1 (i : S8192x256.Idx) (q : dot_S8192x256_S256x256_S8192x256_1_0_0_1_n_n.contr.Idx) : (dot_S8192x256_S256x256_S8192x256_1_0_0_1_n_n.lhsIdx i q 1).val = (q ⟨0, by decide⟩).val :=
  dot_S8192x256_S256x256_S8192x256_1_0_0_1_n_n.lhsIdx_val_of_single rfl i q
theorem rhs_0 (i : S8192x256.Idx) (q : dot_S8192x256_S256x256_S8192x256_1_0_0_1_n_n.contr.Idx) : (dot_S8192x256_S256x256_S8192x256_1_0_0_1_n_n.rhsIdx i q 0).val = (q ⟨0, by decide⟩).val :=
  dot_S8192x256_S256x256_S8192x256_1_0_0_1_n_n.rhsIdx_val_of_single rfl i q
theorem rhs_1 (i : S8192x256.Idx) (q : dot_S8192x256_S256x256_S8192x256_1_0_0_1_n_n.contr.Idx) : (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- At output entry (p, c) and contraction index k the left operand is read at (p, k), -/
theorem lhs_at (p : Fin 8192) (c : Fin 256) (k : Fin 256) :
    dot_S8192x256_S256x256_S8192x256_1_0_0_1_n_n.lhsIdx (ix2 p c) ((contrEquiv1 dot_S8192x256_S256x256_S8192x256_1_0_0_1_n_n 256 rfl rfl).symm k) = ix2 p k := funext fun a => Fin.ext (by
  have hk := contrEquiv1_symm_val dot_S8192x256_S256x256_S8192x256_1_0_0_1_n_n 256 rfl rfl k
  match a with
  | ⟨0, _⟩ => exact lhs_0 _ _
  | ⟨1, _⟩ => exact (lhs_1 _ _).trans hk)
/-- and the right operand at (k, c). -/
theorem rhs_at (p : Fin 8192) (c : Fin 256) (k : Fin 256) :
    dot_S8192x256_S256x256_S8192x256_1_0_0_1_n_n.rhsIdx (ix2 p c) ((contrEquiv1 dot_S8192x256_S256x256_S8192x256_1_0_0_1_n_n 256 rfl rfl).symm k) = ix2 k c := funext fun a => Fin.ext (by
  have hk := contrEquiv1_symm_val dot_S8192x256_S256x256_S8192x256_1_0_0_1_n_n 256 rfl rfl k
  match a with
  | ⟨0, _⟩ => exact (rhs_0 _ _).trans hk
  | ⟨1, _⟩ => exact rhs_1 _ _)

/-! ## The packed product -/

/-- A packed block `xa` whose packed row `p`, band `s`, is row `row` of `A`, against a matrix `wp` whose column `64 s + j` holds
    column `j` of `W` in band `s` and zeros in the other bands: the 256-term product at (p, 64 s + j) is the 64-term product
    of row `row` of `A` with column `j` of `W`. -/
theorem packed_product (xa : FVec Ideal S8192x256 .bf16) (wp : FVec Ideal S256x256 .bf16)
    (A : SRows.Idx → EReal) (W : SWeight.Idx → EReal) (p : Fin 8192) (s : Fin 4) (j : Fin 64) (row : Fin 1048576)
    (hA : ∀ k : Fin 64, xa (ix2 p (colOf s k)) = A (ix2 row k))
    (hW : ∀ (s1 : Fin 4) (r : Fin 64), wp (ix2 (colOf s1 r) (colOf s j)) = if s1 = s then W (ix2 r j) else 0) :
    matmul dot_S8192x256_S256x256_S8192x256_1_0_0_1_n_n none xa wp (constant (F := Ideal) S8192x256 .f32 0x00000000#32) (ix2 p (colOf s j)) = dot A W row j := by
  simp only [matmul]
  rw [Ideal.matmul_constant_zero_apply, ← Equiv.sum_comp (contrEquiv1 dot_S8192x256_S256x256_S8192x256_1_0_0_1_n_n 256 rfl rfl).symm]
  simp only [lhs_at, rhs_at]
  refine (sum_band (fun k => xa (ix2 p k) * wp (ix2 k (colOf s j))) s colOf (fun _ _ => rfl)
    (fun c k hc => by show xa _ * wp (ix2 (colOf c k) (colOf s j)) = 0; rw [hW c k, if_neg hc, mul_zero])).trans ?_
  unfold dot
  exact Finset.sum_congr rfl fun k _ => by show xa (ix2 p (colOf s k)) * wp (ix2 (colOf s k) (colOf s j)) = _; rw [hA k, hW s k, if_pos rfl]

/-! ## The body's intermediate values -/

/-- A change of float format and a cast to the same shape change nothing on the extended reals. -/
theorem pay2_eq (x : S8192x256.Idx → EReal) : (k0_pay2 (F := Ideal) x : S8192x256.Idx → EReal) = x := by
  unfold k0_pay2; exact shapeCast_self x _
theorem pay3_eq (x : S8192x256.Idx → EReal) : (k0_pay3 (F := Ideal) x : S8192x256.Idx → EReal) = x := by
  unfold k0_pay3; rw [shapeCast_self]; rfl
theorem pay4_eq (x : S8192x256.Idx → EReal) : (k0_pay4 (F := Ideal) x : S8192x256.Idx → EReal) = x := by
  unfold k0_pay4; rw [pay2_eq]; rfl

/-- A bias row spread over the block's rows, read at (p, c): the row at c. -/
theorem bias_at (b : S1x256.Idx → EReal) (p : Fin 8192) (c : Fin 256) :
    broadcastTo S8192x256 (shapeCast S1x256 b shapeCasts_S1x256_S1x256) broadcasts_S1x256_S8192x256 (ix2 p c) = b (ix2 (0 : Fin 1) c) := by
  rw [shapeCast_self]
  exact broadcastTo_apply b _ (ix2 p c) (ix2 (0 : Fin 1) c) (fun a => by
    match a with
    | ⟨0, _⟩ => rfl
    | ⟨1, _⟩ => rfl)

/-- Two packed products and a bias, at (p, 64 s + j): a gate's argument at (row, j). -/
theorem pre_at (xa xb : FVec Ideal S8192x256 .bf16) (wa wb : S256x256.Idx → EReal) (b : S1x256.Idx → EReal)
    (A B : SRows.Idx → EReal) (Wa Wb : SWeight.Idx → EReal) (bias : SBias.Idx → EReal)
    (p : Fin 8192) (s : Fin 4) (j : Fin 64) (row : Fin 1048576)
    (hA : ∀ k : Fin 64, xa (ix2 p (colOf s k)) = A (ix2 row k)) (hB : ∀ k : Fin 64, xb (ix2 p (colOf s k)) = B (ix2 row k))
    (hWa : ∀ (s1 : Fin 4) (r : Fin 64), wa (ix2 (colOf s1 r) (colOf s j)) = if s1 = s then Wa (ix2 r j) else 0)
    (hWb : ∀ (s1 : Fin 4) (r : Fin 64), wb (ix2 (colOf s1 r) (colOf s j)) = if s1 = s then Wb (ix2 r j) else 0)
    (hb : b (ix2 (0 : Fin 1) (colOf s j)) = bias (ix1 j)) :
    (addf (addf (matmul dot_S8192x256_S256x256_S8192x256_1_0_0_1_n_n none xa (shapeCast S256x256 wa shapeCasts_S256x256_S256x256 : FVec Ideal S256x256 .bf16) (constant (F := Ideal) S8192x256 .f32 0x00000000#32))
                (matmul dot_S8192x256_S256x256_S8192x256_1_0_0_1_n_n none xb (shapeCast S256x256 wb shapeCasts_S256x256_S256x256 : FVec Ideal S256x256 .bf16) (constant (F := Ideal) S8192x256 .f32 0x00000000#32)))
          (broadcastTo S8192x256 (shapeCast S1x256 b shapeCasts_S1x256_S1x256) broadcasts_S1x256_S8192x256 : FVec Ideal S8192x256 .f32)) (ix2 p (colOf s j))
      = pre A B Wa Wb bias row j := by
  rw [shapeCast_self wa, shapeCast_self wb]
  show matmul dot_S8192x256_S256x256_S8192x256_1_0_0_1_n_n none xa wa (constant (F := Ideal) S8192x256 .f32 0x00000000#32) (ix2 p (colOf s j))
      + matmul dot_S8192x256_S256x256_S8192x256_1_0_0_1_n_n none xb wb (constant (F := Ideal) S8192x256 .f32 0x00000000#32) (ix2 p (colOf s j))
      + broadcastTo S8192x256 (shapeCast S1x256 b shapeCasts_S1x256_S1x256) broadcasts_S1x256_S8192x256 (ix2 p (colOf s j)) = _
  rw [packed_product xa wa A Wa p s j row hA hWa, packed_product xb wb B Wb p s j row hB hWb, bias_at, hb]
  rfl

section Block

variable (x0 x1 : S8192x256.Idx → EReal) (x2 x3 x4 x5 x6 x7 : S256x256.Idx → EReal) (x8 x9 x10 : S1x256.Idx → EReal)
variable (X H : SRows.Idx → EReal) (Wir Whr Wiz Whz Win Whn : SWeight.Idx → EReal) (br bz bn : SBias.Idx → EReal)
variable (p : Fin 8192) (s : Fin 4) (row : Fin 1048576)

/-- The update gate. -/
theorem update_at (j : Fin 64)
    (hX : ∀ k : Fin 64, x0 (ix2 p (colOf s k)) = X (ix2 row k)) (hH : ∀ k : Fin 64, x1 (ix2 p (colOf s k)) = H (ix2 row k))
    (h4 : ∀ (s1 : Fin 4) (r : Fin 64), x4 (ix2 (colOf s1 r) (colOf s j)) = if s1 = s then Wiz (ix2 r j) else 0)
    (h5 : ∀ (s1 : Fin 4) (r : Fin 64), x5 (ix2 (colOf s1 r) (colOf s j)) = if s1 = s then Whz (ix2 r j) else 0)
    (h9 : x9 (ix2 (0 : Fin 1) (colOf s j)) = bz (ix1 j)) :
    k0_pay5 (F := Ideal) x0 x1 x4 x5 x9 (ix2 p (colOf s j)) = gate X H Wiz Whz bz row j := by
  unfold k0_pay5
  rw [pay3_eq, pay4_eq]
  exact congrArg Ideal.logistic (pre_at x0 x1 x4 x5 x9 X H Wiz Whz bz p s j row hX hH h4 h5 h9)

/-- The reset gate applied to the state. -/
theorem reset_at (k : Fin 64)
    (hX : ∀ k : Fin 64, x0 (ix2 p (colOf s k)) = X (ix2 row k)) (hH : ∀ k : Fin 64, x1 (ix2 p (colOf s k)) = H (ix2 row k))
    (h2 : ∀ (s1 : Fin 4) (r : Fin 64), x2 (ix2 (colOf s1 r) (colOf s k)) = if s1 = s then Wir (ix2 r k) else 0)
    (h3 : ∀ (s1 : Fin 4) (r : Fin 64), x3 (ix2 (colOf s1 r) (colOf s k)) = if s1 = s then Whr (ix2 r k) else 0)
    (h8 : x8 (ix2 (0 : Fin 1) (colOf s k)) = br (ix1 k)) :
    k0_pay6 (F := Ideal) x0 x1 x2 x3 x8 (ix2 p (colOf s k)) = resetState X H Wir Whr br (ix2 row k) := by
  unfold k0_pay6
  rw [pay3_eq, pay4_eq, pay2_eq]
  show Ideal.logistic _ * x1 (ix2 p (colOf s k)) = gate X H Wir Whr br row k * H (ix2 row k)
  rw [hH k]
  exact congrArg (fun v => Ideal.logistic v * H (ix2 row k)) (pre_at x0 x1 x2 x3 x8 X H Wir Whr br p s k row hX hH h2 h3 h8)

/-- The input's share of the candidate. -/
theorem input_at (j : Fin 64)
    (hX : ∀ k : Fin 64, x0 (ix2 p (colOf s k)) = X (ix2 row k))
    (h6 : ∀ (s1 : Fin 4) (r : Fin 64), x6 (ix2 (colOf s1 r) (colOf s j)) = if s1 = s then Win (ix2 r j) else 0) :
    k0_pay7 (F := Ideal) x0 x6 (ix2 p (colOf s j)) = dot X Win row j := by
  unfold k0_pay7
  rw [pay3_eq, shapeCast_self x6]
  exact packed_product x0 x6 X Win p s j row hX h6

/-- The value the body stores at (p, 64 s + j) is the cell at (row, j): the blend `(1 − z) ⊙ h + z ⊙ n` entry by entry, the
    candidate's second product running over the reset state's band. -/
theorem cell_at (j : Fin 64)
    (hX : ∀ k : Fin 64, x0 (ix2 p (colOf s k)) = X (ix2 row k)) (hH : ∀ k : Fin 64, x1 (ix2 p (colOf s k)) = H (ix2 row k))
    (h2 : ∀ (j' : Fin 64) (s1 : Fin 4) (r : Fin 64), x2 (ix2 (colOf s1 r) (colOf s j')) = if s1 = s then Wir (ix2 r j') else 0) (h3 : ∀ (j' : Fin 64) (s1 : Fin 4) (r : Fin 64), x3 (ix2 (colOf s1 r) (colOf s j')) = if s1 = s then Whr (ix2 r j') else 0)
    (h4 : ∀ (j' : Fin 64) (s1 : Fin 4) (r : Fin 64), x4 (ix2 (colOf s1 r) (colOf s j')) = if s1 = s then Wiz (ix2 r j') else 0) (h5 : ∀ (j' : Fin 64) (s1 : Fin 4) (r : Fin 64), x5 (ix2 (colOf s1 r) (colOf s j')) = if s1 = s then Whz (ix2 r j') else 0)
    (h6 : ∀ (j' : Fin 64) (s1 : Fin 4) (r : Fin 64), x6 (ix2 (colOf s1 r) (colOf s j')) = if s1 = s then Win (ix2 r j') else 0) (h7 : ∀ (j' : Fin 64) (s1 : Fin 4) (r : Fin 64), x7 (ix2 (colOf s1 r) (colOf s j')) = if s1 = s then Whn (ix2 r j') else 0)
    (h8 : ∀ j' : Fin 64, x8 (ix2 (0 : Fin 1) (colOf s j')) = br (ix1 j')) (h9 : ∀ j' : Fin 64, x9 (ix2 (0 : Fin 1) (colOf s j')) = bz (ix1 j')) (h10 : ∀ j' : Fin 64, x10 (ix2 (0 : Fin 1) (colOf s j')) = bn (ix1 j')) :
    k0_pay1 (F := Ideal) (k0_pay2 x1) (k0_pay5 x0 x1 x4 x5 x9) (k0_pay6 x0 x1 x2 x3 x8) (k0_pay7 x0 x6) x7 x10 (ix2 p (colOf s j))
      = cellAt X H Wir Whr Wiz Whz Win Whn br bz bn row j := by
  unfold k0_pay1
  rw [pay2_eq, shapeCast_self x7]
  show (Ideal.ofBits .f32 0x3F800000#32 - k0_pay5 (F := Ideal) x0 x1 x4 x5 x9 (ix2 p (colOf s j))) * x1 (ix2 p (colOf s j))
      + k0_pay5 (F := Ideal) x0 x1 x4 x5 x9 (ix2 p (colOf s j))
        * Ideal.tanh (k0_pay7 (F := Ideal) x0 x6 (ix2 p (colOf s j))
            + matmul dot_S8192x256_S256x256_S8192x256_1_0_0_1_n_n none (k0_pay6 (F := Ideal) x0 x1 x2 x3 x8) x7 (constant (F := Ideal) S8192x256 .f32 0x00000000#32) (ix2 p (colOf s j))
            + broadcastTo S8192x256 (shapeCast S1x256 x10 shapeCasts_S1x256_S1x256) broadcasts_S1x256_S8192x256 (ix2 p (colOf s j))) = _
  rw [update_at x0 x1 x4 x5 x9 X H Wiz Whz bz p s row j hX hH (h4 j) (h5 j) (h9 j), hH j,
    input_at x0 x6 X Win p s row j hX (h6 j),
    packed_product (k0_pay6 (F := Ideal) x0 x1 x2 x3 x8) x7 (resetState X H Wir Whr br) Whn p s j row
      (fun k => reset_at x0 x1 x2 x3 x8 X H Wir Whr br p s row k hX hH (h2 k) (h3 k) (h8 k)) (h7 j),
    bias_at, h10 j]
  rfl

end Block

end Cert.KernelIdeal.Val

end
-- ==== Proof.IdealWhole.lean ====
/-
  From blocks to the array. Grid point `t` of 32 works on packed rows `8192 t … 8192 t + 8191`; its two row windows read
  those rows of the regrouped inputs, the nine other input windows read their whole arrays at every point, and the output
  window writes the same packed rows back. With the arrays the region finds described entry by entry (`EntryArrays`:
  the regrouped rows, the banded matrices, the repeated biases), what point `t` writes back is block `t` of ONE packed
  array whose entry (P, 64 s + j) is the cell at row `4 P + s`, column `j`; the 32 blocks tile the output array; and the one
  host operation after the region regroups it back to 1,048,576 rows of 64, entry (row, j) landing on the cell at (row, j).
-/
import proofs.«172371_j8151847928332_2_alg».proof.Proof.IdealRun
import proofs.«172371_j8151847928332_2_alg».proof.Proof.IdealCellBlock
import Idealize.ShloMosaic.Lib.StableHlo.Run
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
open Idealize.ShloMosaic.ValueIdx
open Cert.GruSpec (colOf)

variable (m : (ℓ : Loc nD τ sig) → Buf (Elt Ideal) ℓ) (ρ : Dev nD → PrngReg)

/-! ## The arrays the region finds, entry by entry -/

/-- What the host operations before the region leave in the eleven staged arrays on core `c`: the two inputs regrouped four
    rows to a packed row; each weight on the diagonal of a 256×256 matrix of 64×64 blocks, zeros off it; each bias
    repeated four times along a row. -/
structure EntryArrays (c : Dev nD) : Prop where
  rows0 : ∀ (P : Fin 262144) (s : Fin 4) (k : Fin 64) (row : Fin 1048576), row.val = 4 * P.val + s.val →
    V m c main_v0 (ix2 P (colOf s k)) = (m ((c : Thread nD τ).loc main_arg0)) (ix2 row k)
  rows1 : ∀ (P : Fin 262144) (s : Fin 4) (k : Fin 64) (row : Fin 1048576), row.val = 4 * P.val + s.val →
    V m c main_v1 (ix2 P (colOf s k)) = (m ((c : Thread nD τ).loc main_arg1)) (ix2 row k)
  w2 : ∀ (s1 : Fin 4) (r : Fin 64) (s : Fin 4) (j : Fin 64),
    V m c main_v8 (ix2 (colOf s1 r) (colOf s j)) = if s1 = s then ((m ((c : Thread nD τ).loc main_arg2)) (ix2 r j) : EReal) else (0 : EReal)
  w3 : ∀ (s1 : Fin 4) (r : Fin 64) (s : Fin 4) (j : Fin 64),
    V m c main_v15 (ix2 (colOf s1 r) (colOf s j)) = if s1 = s then ((m ((c : Thread nD τ).loc main_arg3)) (ix2 r j) : EReal) else (0 : EReal)
  w4 : ∀ (s1 : Fin 4) (r : Fin 64) (s : Fin 4) (j : Fin 64),
    V m c main_v22 (ix2 (colOf s1 r) (colOf s j)) = if s1 = s then ((m ((c : Thread nD τ).loc main_arg4)) (ix2 r j) : EReal) else (0 : EReal)
  w5 : ∀ (s1 : Fin 4) (r : Fin 64) (s : Fin 4) (j : Fin 64),
    V m c main_v29 (ix2 (colOf s1 r) (colOf s j)) = if s1 = s then ((m ((c : Thread nD τ).loc main_arg5)) (ix2 r j) : EReal) else (0 : EReal)
  w6 : ∀ (s1 : Fin 4) (r : Fin 64) (s : Fin 4) (j : Fin 64),
    V m c main_v36 (ix2 (colOf s1 r) (colOf s j)) = if s1 = s then ((m ((c : Thread nD τ).loc main_arg6)) (ix2 r j) : EReal) else (0 : EReal)
  w7 : ∀ (s1 : Fin 4) (r : Fin 64) (s : Fin 4) (j : Fin 64),
    V m c main_v43 (ix2 (colOf s1 r) (colOf s j)) = if s1 = s then ((m ((c : Thread nD τ).loc main_arg7)) (ix2 r j) : EReal) else (0 : EReal)
  b8 : ∀ (s : Fin 4) (j : Fin 64), V m c main_v47 (ix2 (0 : Fin 1) (colOf s j)) = (m ((c : Thread nD τ).loc main_arg8)) (ix1 j)
  b9 : ∀ (s : Fin 4) (j : Fin 64), V m c main_v51 (ix2 (0 : Fin 1) (colOf s j)) = (m ((c : Thread nD τ).loc main_arg9)) (ix1 j)
  b10 : ∀ (s : Fin 4) (j : Fin 64), V m c main_v55 (ix2 (0 : Fin 1) (colOf s j)) = (m ((c : Thread nD τ).loc main_arg10)) (ix1 j)

/-! ## The packed result -/

/-- The cell of the eleven arguments' launch contents on core `c`, at row `row`, column `j`. -/
def cellAtOf (c : Dev nD) (row : Fin 1048576) (j : Fin 64) : EReal :=
  GruSpec.cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) row j

/-- The packed array: entry (P, q) is the cell at row `4 P + q / 64`, column `q % 64`. -/
def packed (c : Dev nD) : S262144x256.Idx → EReal := fun i =>
  cellAtOf m c ⟨4 * (i 0).val + (i 1).val / 64, by
      have h0 : (i 0).val < 262144 := (i 0).isLt
      have h1 : (i 1).val < 256 := (i 1).isLt
      omega⟩
    ⟨(i 1).val % 64, Nat.mod_lt _ (by decide)⟩

theorem hz : (![0, 0] : Fin 2 → Nat) = fun _ => 0 := funext fun a => by fin_cases a <;> rfl

/-! ## The index maps over the grid -/

/-- The two row windows and the output window sit at block (t, 0) at point t. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0 :=
  (by decide +kernel : ∀ t : Fin grid0.N, _)

/-- The nine other windows sit at block (0, 0) at every point. -/
theorem idx_fixed : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## The input blocks at a point -/

/-- Window 0's block at point `t`, packed row `p`, band `s`: row `4 (8192 t + p) + s` of argument 0. -/
theorem blk_rows0 {c : Dev nD} (hE : EntryArrays m c) (t : Fin cfg0.N) (p : Fin 8192) (s : Fin 4) (k : Fin 64) (row : Fin 1048576)
    (hrow : row.val = 4 * (8192 * t.val + p.val) + s.val) :
    iblk m c 0 t (ix2 p (colOf s k)) = (m ((c : Thread nD τ).loc main_arg0)) (ix2 row k) := by
  have ht : t.val < 32 := lt_of_lt_of_eq t.isLt N_0
  have hp : p.val < 8192 := p.isLt
  have hP : 8192 * t.val + p.val < 262144 := by omega
  show V m c main_v0 (((cfg0.win 0).blk t).view.emb (ix2 p (colOf s k))) = _
  have he : ((cfg0.win 0).blk t).view.emb (ix2 p (colOf s k)) = ix2 (⟨8192 * t.val + p.val, hP⟩ : Fin 262144) (colOf s k) := by
    funext a; apply Fin.ext
    obtain ⟨e0, e1, e2, e3, e4, e5⟩ := idx_rows t
    match a with
    | ⟨0, _⟩ => show win0_0.index t (0 : Fin 2) * 8192 + 1 * p.val = 8192 * t.val + p.val; omega
    | ⟨1, _⟩ => show win0_0.index t (1 : Fin 2) * 256 + 1 * (colOf s k).val = (colOf s k).val; omega
  rw [he]
  exact hE.rows0 _ s k row hrow

/-- Window 1's block at point `t`, packed row `p`, band `s`: row `4 (8192 t + p) + s` of argument 1. -/
theorem blk_rows1 {c : Dev nD} (hE : EntryArrays m c) (t : Fin cfg0.N) (p : Fin 8192) (s : Fin 4) (k : Fin 64) (row : Fin 1048576)
    (hrow : row.val = 4 * (8192 * t.val + p.val) + s.val) :
    iblk m c 1 t (ix2 p (colOf s k)) = (m ((c : Thread nD τ).loc main_arg1)) (ix2 row k) := by
  have ht : t.val < 32 := lt_of_lt_of_eq t.isLt N_0
  have hp : p.val < 8192 := p.isLt
  have hP : 8192 * t.val + p.val < 262144 := by omega
  show V m c main_v1 (((cfg0.win 1).blk t).view.emb (ix2 p (colOf s k))) = _
  have he : ((cfg0.win 1).blk t).view.emb (ix2 p (colOf s k)) = ix2 (⟨8192 * t.val + p.val, hP⟩ : Fin 262144) (colOf s k) := by
    funext a; apply Fin.ext
    obtain ⟨e0, e1, e2, e3, e4, e5⟩ := idx_rows t
    match a with
    | ⟨0, _⟩ => show win0_1.index t (0 : Fin 2) * 8192 + 1 * p.val = 8192 * t.val + p.val; omega
    | ⟨1, _⟩ => show win0_1.index t (1 : Fin 2) * 256 + 1 * (colOf s k).val = (colOf s k).val; omega
  rw [he]
  exact hE.rows1 _ s k row hrow

/-- Window 2's block is its whole array at every point. -/
theorem blk_w2 {c : Dev nD} (hE : EntryArrays m c) (t : Fin cfg0.N) (s1 : Fin 4) (r : Fin 64) (s : Fin 4) (j : Fin 64) :
    iblk m c 2 t (ix2 (colOf s1 r) (colOf s j)) = if s1 = s then ((m ((c : Thread nD τ).loc main_arg2)) (ix2 r j) : EReal) else (0 : EReal) := by
  show V m c main_v8 (((cfg0.win 2).blk t).view.emb (ix2 (colOf s1 r) (colOf s j))) = _
  have he : ((cfg0.win 2).blk t).view.emb (ix2 (colOf s1 r) (colOf s j)) = ix2 (colOf s1 r) (colOf s j) := by
    funext a; apply Fin.ext
    obtain ⟨f2a, f2b, f3a, f3b, f4a, f4b, f5a, f5b, f6a, f6b, f7a, f7b, f8a, f8b, f9a, f9b, f10a, f10b⟩ := idx_fixed t
    match a with
    | ⟨0, _⟩ => show win0_2.index t (0 : Fin 2) * 256 + 1 * (colOf s1 r).val = (colOf s1 r).val; omega
    | ⟨1, _⟩ => show win0_2.index t (1 : Fin 2) * 256 + 1 * (colOf s j).val = (colOf s j).val; omega
  rw [he]
  exact hE.w2 s1 r s j

/-- Window 3's block is its whole array at every point. -/
theorem blk_w3 {c : Dev nD} (hE : EntryArrays m c) (t : Fin cfg0.N) (s1 : Fin 4) (r : Fin 64) (s : Fin 4) (j : Fin 64) :
    iblk m c 3 t (ix2 (colOf s1 r) (colOf s j)) = if s1 = s then ((m ((c : Thread nD τ).loc main_arg3)) (ix2 r j) : EReal) else (0 : EReal) := by
  show V m c main_v15 (((cfg0.win 3).blk t).view.emb (ix2 (colOf s1 r) (colOf s j))) = _
  have he : ((cfg0.win 3).blk t).view.emb (ix2 (colOf s1 r) (colOf s j)) = ix2 (colOf s1 r) (colOf s j) := by
    funext a; apply Fin.ext
    obtain ⟨f2a, f2b, f3a, f3b, f4a, f4b, f5a, f5b, f6a, f6b, f7a, f7b, f8a, f8b, f9a, f9b, f10a, f10b⟩ := idx_fixed t
    match a with
    | ⟨0, _⟩ => show win0_3.index t (0 : Fin 2) * 256 + 1 * (colOf s1 r).val = (colOf s1 r).val; omega
    | ⟨1, _⟩ => show win0_3.index t (1 : Fin 2) * 256 + 1 * (colOf s j).val = (colOf s j).val; omega
  rw [he]
  exact hE.w3 s1 r s j

/-- Window 4's block is its whole array at every point. -/
theorem blk_w4 {c : Dev nD} (hE : EntryArrays m c) (t : Fin cfg0.N) (s1 : Fin 4) (r : Fin 64) (s : Fin 4) (j : Fin 64) :
    iblk m c 4 t (ix2 (colOf s1 r) (colOf s j)) = if s1 = s then ((m ((c : Thread nD τ).loc main_arg4)) (ix2 r j) : EReal) else (0 : EReal) := by
  show V m c main_v22 (((cfg0.win 4).blk t).view.emb (ix2 (colOf s1 r) (colOf s j))) = _
  have he : ((cfg0.win 4).blk t).view.emb (ix2 (colOf s1 r) (colOf s j)) = ix2 (colOf s1 r) (colOf s j) := by
    funext a; apply Fin.ext
    obtain ⟨f2a, f2b, f3a, f3b, f4a, f4b, f5a, f5b, f6a, f6b, f7a, f7b, f8a, f8b, f9a, f9b, f10a, f10b⟩ := idx_fixed t
    match a with
    | ⟨0, _⟩ => show win0_4.index t (0 : Fin 2) * 256 + 1 * (colOf s1 r).val = (colOf s1 r).val; omega
    | ⟨1, _⟩ => show win0_4.index t (1 : Fin 2) * 256 + 1 * (colOf s j).val = (colOf s j).val; omega
  rw [he]
  exact hE.w4 s1 r s j

/-- Window 5's block is its whole array at every point. -/
theorem blk_w5 {c : Dev nD} (hE : EntryArrays m c) (t : Fin cfg0.N) (s1 : Fin 4) (r : Fin 64) (s : Fin 4) (j : Fin 64) :
    iblk m c 5 t (ix2 (colOf s1 r) (colOf s j)) = if s1 = s then ((m ((c : Thread nD τ).loc main_arg5)) (ix2 r j) : EReal) else (0 : EReal) := by
  show V m c main_v29 (((cfg0.win 5).blk t).view.emb (ix2 (colOf s1 r) (colOf s j))) = _
  have he : ((cfg0.win 5).blk t).view.emb (ix2 (colOf s1 r) (colOf s j)) = ix2 (colOf s1 r) (colOf s j) := by
    funext a; apply Fin.ext
    obtain ⟨f2a, f2b, f3a, f3b, f4a, f4b, f5a, f5b, f6a, f6b, f7a, f7b, f8a, f8b, f9a, f9b, f10a, f10b⟩ := idx_fixed t
    match a with
    | ⟨0, _⟩ => show win0_5.index t (0 : Fin 2) * 256 + 1 * (colOf s1 r).val = (colOf s1 r).val; omega
    | ⟨1, _⟩ => show win0_5.index t (1 : Fin 2) * 256 + 1 * (colOf s j).val = (colOf s j).val; omega
  rw [he]
  exact hE.w5 s1 r s j

/-- Window 6's block is its whole array at every point. -/
theorem blk_w6 {c : Dev nD} (hE : EntryArrays m c) (t : Fin cfg0.N) (s1 : Fin 4) (r : Fin 64) (s : Fin 4) (j : Fin 64) :
    iblk m c 6 t (ix2 (colOf s1 r) (colOf s j)) = if s1 = s then ((m ((c : Thread nD τ).loc main_arg6)) (ix2 r j) : EReal) else (0 : EReal) := by
  show V m c main_v36 (((cfg0.win 6).blk t).view.emb (ix2 (colOf s1 r) (colOf s j))) = _
  have he : ((cfg0.win 6).blk t).view.emb (ix2 (colOf s1 r) (colOf s j)) = ix2 (colOf s1 r) (colOf s j) := by
    funext a; apply Fin.ext
    obtain ⟨f2a, f2b, f3a, f3b, f4a, f4b, f5a, f5b, f6a, f6b, f7a, f7b, f8a, f8b, f9a, f9b, f10a, f10b⟩ := idx_fixed t
    match a with
    | ⟨0, _⟩ => show win0_6.index t (0 : Fin 2) * 256 + 1 * (colOf s1 r).val = (colOf s1 r).val; omega
    | ⟨1, _⟩ => show win0_6.index t (1 : Fin 2) * 256 + 1 * (colOf s j).val = (colOf s j).val; omega
  rw [he]
  exact hE.w6 s1 r s j

/-- Window 7's block is its whole array at every point. -/
theorem blk_w7 {c : Dev nD} (hE : EntryArrays m c) (t : Fin cfg0.N) (s1 : Fin 4) (r : Fin 64) (s : Fin 4) (j : Fin 64) :
    iblk m c 7 t (ix2 (colOf s1 r) (colOf s j)) = if s1 = s then ((m ((c : Thread nD τ).loc main_arg7)) (ix2 r j) : EReal) else (0 : EReal) := by
  show V m c main_v43 (((cfg0.win 7).blk t).view.emb (ix2 (colOf s1 r) (colOf s j))) = _
  have he : ((cfg0.win 7).blk t).view.emb (ix2 (colOf s1 r) (colOf s j)) = ix2 (colOf s1 r) (colOf s j) := by
    funext a; apply Fin.ext
    obtain ⟨f2a, f2b, f3a, f3b, f4a, f4b, f5a, f5b, f6a, f6b, f7a, f7b, f8a, f8b, f9a, f9b, f10a, f10b⟩ := idx_fixed t
    match a with
    | ⟨0, _⟩ => show win0_7.index t (0 : Fin 2) * 256 + 1 * (colOf s1 r).val = (colOf s1 r).val; omega
    | ⟨1, _⟩ => show win0_7.index t (1 : Fin 2) * 256 + 1 * (colOf s j).val = (colOf s j).val; omega
  rw [he]
  exact hE.w7 s1 r s j

/-- Window 8's block is its whole array at every point. -/
theorem blk_b8 {c : Dev nD} (hE : EntryArrays m c) (t : Fin cfg0.N) (s : Fin 4) (j : Fin 64) :
    iblk m c 8 t (ix2 (0 : Fin 1) (colOf s j)) = (m ((c : Thread nD τ).loc main_arg8)) (ix1 j) := by
  show V m c main_v47 (((cfg0.win 8).blk t).view.emb (ix2 (0 : Fin 1) (colOf s j))) = _
  have he : ((cfg0.win 8).blk t).view.emb (ix2 (0 : Fin 1) (colOf s j)) = ix2 (0 : Fin 1) (colOf s j) := by
    funext a; apply Fin.ext
    obtain ⟨f2a, f2b, f3a, f3b, f4a, f4b, f5a, f5b, f6a, f6b, f7a, f7b, f8a, f8b, f9a, f9b, f10a, f10b⟩ := idx_fixed t
    match a with
    | ⟨0, _⟩ => show win0_8.index t (0 : Fin 2) * 1 + 1 * (0 : Fin 1).val = (0 : Fin 1).val; omega
    | ⟨1, _⟩ => show win0_8.index t (1 : Fin 2) * 256 + 1 * (colOf s j).val = (colOf s j).val; omega
  rw [he]
  exact hE.b8 s j

/-- Window 9's block is its whole array at every point. -/
theorem blk_b9 {c : Dev nD} (hE : EntryArrays m c) (t : Fin cfg0.N) (s : Fin 4) (j : Fin 64) :
    iblk m c 9 t (ix2 (0 : Fin 1) (colOf s j)) = (m ((c : Thread nD τ).loc main_arg9)) (ix1 j) := by
  show V m c main_v51 (((cfg0.win 9).blk t).view.emb (ix2 (0 : Fin 1) (colOf s j))) = _
  have he : ((cfg0.win 9).blk t).view.emb (ix2 (0 : Fin 1) (colOf s j)) = ix2 (0 : Fin 1) (colOf s j) := by
    funext a; apply Fin.ext
    obtain ⟨f2a, f2b, f3a, f3b, f4a, f4b, f5a, f5b, f6a, f6b, f7a, f7b, f8a, f8b, f9a, f9b, f10a, f10b⟩ := idx_fixed t
    match a with
    | ⟨0, _⟩ => show win0_9.index t (0 : Fin 2) * 1 + 1 * (0 : Fin 1).val = (0 : Fin 1).val; omega
    | ⟨1, _⟩ => show win0_9.index t (1 : Fin 2) * 256 + 1 * (colOf s j).val = (colOf s j).val; omega
  rw [he]
  exact hE.b9 s j

/-- Window 10's block is its whole array at every point. -/
theorem blk_b10 {c : Dev nD} (hE : EntryArrays m c) (t : Fin cfg0.N) (s : Fin 4) (j : Fin 64) :
    iblk m c 10 t (ix2 (0 : Fin 1) (colOf s j)) = (m ((c : Thread nD τ).loc main_arg10)) (ix1 j) := by
  show V m c main_v55 (((cfg0.win 10).blk t).view.emb (ix2 (0 : Fin 1) (colOf s j))) = _
  have he : ((cfg0.win 10).blk t).view.emb (ix2 (0 : Fin 1) (colOf s j)) = ix2 (0 : Fin 1) (colOf s j) := by
    funext a; apply Fin.ext
    obtain ⟨f2a, f2b, f3a, f3b, f4a, f4b, f5a, f5b, f6a, f6b, f7a, f7b, f8a, f8b, f9a, f9b, f10a, f10b⟩ := idx_fixed t
    match a with
    | ⟨0, _⟩ => show win0_10.index t (0 : Fin 2) * 1 + 1 * (0 : Fin 1).val = (0 : Fin 1).val; omega
    | ⟨1, _⟩ => show win0_10.index t (1 : Fin 2) * 256 + 1 * (colOf s j).val = (colOf s j).val; omega
  rw [he]
  exact hE.b10 s j

/-! ## What a point writes back -/

/-- Point `t` writes back block `t` of the packed array. -/
theorem flushed_eq {c : Dev nD} (hE : EntryArrays m c) (t : Fin cfg0.N) :
    (dats m 0 c).flushed 11 t = ((cfg0.win 11).blk t).view.read (Elt Ideal) (packed m c) := by
  show (cfg0.win 11).cut (grid0.coords t) ((dats m 0 c).after 11 t) = _
  rw [after0_11]
  unfold out0_11
  rw [View.canon_unit_zero hz]
  simp only [View.ld_unit_zero (S := S8192x256) hz, View.ld_unit_zero (S := S256x256) hz, View.ld_unit_zero (S := S1x256) hz]
  funext y
  obtain ⟨p, col, rfl⟩ : ∃ (p : Fin 8192) (col : Fin 256), y = ix2 p col := ⟨y 0, y 1, eq_ix2 y⟩
  have hcol : col.val < 256 := col.isLt
  obtain ⟨s, j, rfl⟩ : ∃ (s : Fin 4) (j : Fin 64), col = colOf s j :=
    ⟨⟨col.val / 64, by omega⟩, ⟨col.val % 64, Nat.mod_lt _ (by decide)⟩, Fin.ext (by show col.val = 64 * (col.val / 64) + col.val % 64; omega)⟩
  have ht : t.val < 32 := lt_of_lt_of_eq t.isLt N_0
  have hp : p.val < 8192 := p.isLt
  have hs : s.val < 4 := s.isLt
  have hj : j.val < 64 := j.isLt
  refine (Val.cell_at (iblk m c 0 t) (iblk m c 1 t) (iblk m c 2 t) (iblk m c 3 t) (iblk m c 4 t) (iblk m c 5 t) (iblk m c 6 t) (iblk m c 7 t)
    (iblk m c 8 t) (iblk m c 9 t) (iblk m c 10 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    p s (⟨4 * (8192 * t.val + p.val) + s.val, by omega⟩ : Fin 1048576) j
    (fun k => blk_rows0 m hE t p s k _ rfl) (fun k => blk_rows1 m hE t p s k _ rfl)
    (fun j' s1 r => blk_w2 m hE t s1 r s j') (fun j' s1 r => blk_w3 m hE t s1 r s j')
    (fun j' s1 r => blk_w4 m hE t s1 r s j') (fun j' s1 r => blk_w5 m hE t s1 r s j')
    (fun j' s1 r => blk_w6 m hE t s1 r s j') (fun j' s1 r => blk_w7 m hE t s1 r s j')
    (fun j' => blk_b8 m hE t s j') (fun j' => blk_b9 m hE t s j') (fun j' => blk_b10 m hE t s j')).trans ?_
  obtain ⟨-, -, -, -, e0, e1⟩ := idx_rows t
  have q0 : ((((cfg0.win 11).blk t).view.emb (ix2 p (colOf s j))) 0).val = 8192 * t.val + p.val := by
    show win0_11.index t (0 : Fin 2) * 8192 + 1 * p.val = _; omega
  have q1 : ((((cfg0.win 11).blk t).view.emb (ix2 p (colOf s j))) 1).val = 64 * s.val + j.val := by
    show win0_11.index t (1 : Fin 2) * 256 + 1 * (colOf s j).val = _
    have : (colOf s j).val = 64 * s.val + j.val := rfl
    omega
  show cellAtOf m c _ _ = packed m c (((cfg0.win 11).blk t).view.emb (ix2 p (colOf s j)))
  unfold packed
  congr 1
  · exact Fin.ext (by show 4 * (8192 * t.val + p.val) + s.val = 4 * _ + _ / 64; rw [q0, q1]; omega)
  · exact Fin.ext (by show j.val = _ % 64; rw [q1]; omega)

/-! ## The cover and the array after the run -/

/-- An index of the output array is in point `t`'s block iff each coordinate is in the block's range on its axis. -/
theorem mem_blk (t : Fin cfg0.N) (i : S262144x256.Idx) :
    i ∈ ((cfg0.win 11).blk t).view.set ↔ ∀ a : Fin 2, win0_11.index t a * S8192x256.size a ≤ (i a).val ∧ (i a).val < win0_11.index t a * S8192x256.size a + S8192x256.size a := by
  show i ∈ ((View.whole main_v56).slice (win0_11.rect t)).set ↔ _
  rw [View.set_slice_whole, Rect.mem_set_unit]
  exact Iff.rfl

/-- The 32 blocks tile the output array: packed row `P` is in the block of point `P / 8192`. -/
theorem cover (i : S262144x256.Idx) : ∃ t : Fin cfg0.N, (cfg0.win 11).flush t = true ∧ i ∈ ((cfg0.win 11).blk t).view.set := by
  have h0 : (i 0).val < 262144 := (i 0).isLt
  have h1 : (i 1).val < 256 := (i 1).isLt
  have hN : (i 0).val / 8192 < cfg0.N := by rw [show cfg0.N = 32 from N_0]; omega
  refine ⟨⟨(i 0).val / 8192, hN⟩, flush0_11 _, ?_⟩
  rw [mem_blk]
  obtain ⟨-, -, -, -, e0, e1⟩ := idx_rows ⟨(i 0).val / 8192, hN⟩
  intro a
  match a with
  | ⟨0, _⟩ =>
    show win0_11.index ⟨(i 0).val / 8192, hN⟩ (0 : Fin 2) * 8192 ≤ (i 0).val ∧ (i 0).val < win0_11.index ⟨(i 0).val / 8192, hN⟩ (0 : Fin 2) * 8192 + 8192
    rw [e0]; show (i 0).val / 8192 * 8192 ≤ (i 0).val ∧ (i 0).val < (i 0).val / 8192 * 8192 + 8192; omega
  | ⟨1, _⟩ =>
    show win0_11.index ⟨(i 0).val / 8192, hN⟩ (1 : Fin 2) * 256 ≤ (i 1).val ∧ (i 1).val < win0_11.index ⟨(i 0).val / 8192, hN⟩ (1 : Fin 2) * 256 + 256
    rw [e1]; omega

/-- The output array after the run is the packed array. -/
theorem final {c : Dev nD} (hE : EntryArrays m c) : (dats m 0 c).arrAt 11 cfg0.N = packed m c :=
  (dats m 0 c).arrAt_eq_of_cover 11 (packed m c) (fun t _ => flushed_eq m hE t) (cover)

end Cert.KernelIdeal.Fr

end
-- ==== Proof.IdealValue.lean ====
/-
  The kernel program's result. After the region the output array holds the packed array; the one host operation after it
  regroups 262,144 packed rows of 256 back into 1,048,576 rows of 64, row-major: entry (row, j) of the result is entry
  (row / 4, 64 (row % 4) + j) of the packed array, which is the cell at (row, j). So the run of @main ends with the result
  buffer at the cell of the launch contents of the eleven arguments, and with the arguments as launched.
-/
import proofs.«172371_j8151847928332_2_alg».proof.Proof.IdealWhole

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
open Idealize.ShloMosaic.ValueIdx
open Cert.GruSpec (colOf)

variable (m : (ℓ : Loc nD τ sig) → Buf (Elt Ideal) ℓ) (ρ : Dev nD → PrngReg)

/-- The cell of the eleven arguments' launch contents on core `c`, as an array. -/
def cellOf (c : Dev nD) : S1048576x64.Idx → EReal :=
  GruSpec.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The packed array regrouped row-major into rows of 64 is the cell. -/
theorem regrouped {c : Dev nD} :
    shapeCast S1048576x64 (packed m c) shapeCasts_S262144x256_S1048576x64 = cellOf m c := by
  funext i
  obtain ⟨row, j, rfl⟩ : ∃ (row : Fin 1048576) (j : Fin 64), i = ix2 row j := ⟨i 0, i 1, eq_ix2 i⟩
  have hr : row.val < 1048576 := row.isLt
  have hj : j.val < 64 := j.isLt
  rw [shapeCast_apply (packed m c) shapeCasts_S262144x256_S1048576x64 (ix2 row j)
    (ix2 (⟨row.val / 4, by omega⟩ : Fin 262144) (⟨64 * (row.val % 4) + j.val, by omega⟩ : Fin 256))
    (by rw [Shape.rowMajor_val_two, Shape.rowMajor_val_two]
        show row.val / 4 * 256 + (64 * (row.val % 4) + j.val) = row.val * 64 + j.val
        omega)]
  show cellAtOf m c _ _ = cellAtOf m c row j
  congr 1
  · exact Fin.ext (by show 4 * (row.val / 4) + (64 * (row.val % 4) + j.val) / 64 = row.val; omega)
  · exact Fin.ext (by show (64 * (row.val % 4) + j.val) % 64 = j.val; omega)

/-- The result buffer as the host operation after the region leaves it: the cell. -/
theorem tail_eq {c : Dev nD} (hE : EntryArrays m c) :
    Pipeline.afterTail₀ cfgs (dats m) 0 (V0 m) [hostOps1] c main_v57 = cellOf m c := by
  unfold Pipeline.afterTail₀
  show StableHlo.after hostOps1 _ (Proc.devRef .tc main_v57) = _
  after_results
  have hw : Pipeline.withArrays (cfgs 0).spec c (V0 m c) (fun w => (dats m 0 c).arrAt w (cfgs 0).N) (Proc.devRef .tc main_v56) = packed m c :=
    (Pipeline.withArrays_arr spec0 launch0.win.arr_inj c _ _ 11).trans (final m hE)
  show shapeCast S1048576x64 (Pipeline.withArrays (cfgs 0).spec c (V0 m c) (fun w => (dats m 0 c).arrAt w (cfgs 0).N) (Proc.devRef .tc main_v56))
    shapeCasts_S262144x256_S1048576x64 = _
  rw [hw]
  exact regrouped m

/-- The run of @main, read: the result buffer ends at the cell of the arguments' launch contents, the arguments as launched. -/
theorem value_run (hE : ∀ c, EntryArrays m c) :
    θ_run defs (onTc (τ := τ) (main (F := Ideal))) ⟨m, fun _ => 0, ρ⟩ (fun r => ∀ c : Dev nD,
      r.2.mem ((c.tc : Thread nD τ).loc main_v57) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v57 (Pipeline.mem_restRefs_of main_v57 (by decide) (by decide))).trans (tail_eq m (hE c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.KernelIdeal.Fr

end
-- ==== Proof.IdealRowsBias.lean ====
/-
  Five of the eleven arrays the region finds, read at an entry. The two inputs are regrouped row-major from 1,048,576
  rows of 64 to 262,144 rows of 256: packed row `P`, column `64 s + k`, is row `4 P + s`, column `k`, because
  `256 P + 64 s + k = 64 (4 P + s) + k`. Each bias of 64 entries is viewed as 1×64, as 1×1×1×64, repeated to 1×1×4×64 and
  regrouped to 1×256: column `64 s + j` holds entry `j`, whatever the band `s`.
-/
import proofs.«172371_j8151847928332_2_alg».proof.Proof.IdealSides
import proofs.«172371_j8151847928332_2_alg».proof.Proof.GruSpec
import Idealize.ShloMosaic.Lib.StableHlo.Run
import Idealize.ShloMosaic.PureOps.Ideal
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
open Idealize.ShloMosaic.ValueIdx
open Cert.GruSpec (colOf)

variable (m : (ℓ : Loc nD τ sig) → Buf (Elt Ideal) ℓ)

set_option maxHeartbeats 4000000 in
/-- Input 0, regrouped. -/
theorem rows0_at (c : Dev nD) (P : Fin 262144) (s : Fin 4) (k : Fin 64) (row : Fin 1048576) (hrow : row.val = 4 * P.val + s.val) :
    V m c main_v0 (ix2 P (colOf s k)) = m ((c : Thread nD τ).loc main_arg0) (ix2 row k) := by
  have e : (V m c main_v0 : S262144x256.Idx → EReal)
      = shapeCast S262144x256 (m ((c : Thread nD τ).loc main_arg0)) shapeCasts_S1048576x64_S262144x256 := by
    show StableHlo.after hostOps0 (fun b => m (c, b)) (Proc.devRef .tc main_v0) = _
    after_results
    rfl
  have hc : (colOf s k).val = 64 * s.val + k.val := rfl
  exact (congrFun e (ix2 P (colOf s k))).trans
    (shapeCast_apply (m ((c : Thread nD τ).loc main_arg0)) shapeCasts_S1048576x64_S262144x256 (ix2 P (colOf s k)) (ix2 row k)
      (by show (S1048576x64.rowMajor (ix2 row k)).val = (S262144x256.rowMajor (ix2 P (colOf s k))).val
          rw [Shape.rowMajor_val_two, Shape.rowMajor_val_two]
          show row.val * 64 + k.val = P.val * 256 + (colOf s k).val
          omega))

set_option maxHeartbeats 4000000 in
/-- Input 1, regrouped. -/
theorem rows1_at (c : Dev nD) (P : Fin 262144) (s : Fin 4) (k : Fin 64) (row : Fin 1048576) (hrow : row.val = 4 * P.val + s.val) :
    V m c main_v1 (ix2 P (colOf s k)) = m ((c : Thread nD τ).loc main_arg1) (ix2 row k) := by
  have e : (V m c main_v1 : S262144x256.Idx → EReal)
      = shapeCast S262144x256 (m ((c : Thread nD τ).loc main_arg1)) shapeCasts_S1048576x64_S262144x256 := by
    show StableHlo.after hostOps0 (fun b => m (c, b)) (Proc.devRef .tc main_v1) = _
    after_results
    rfl
  have hc : (colOf s k).val = 64 * s.val + k.val := rfl
  exact (congrFun e (ix2 P (colOf s k))).trans
    (shapeCast_apply (m ((c : Thread nD τ).loc main_arg1)) shapeCasts_S1048576x64_S262144x256 (ix2 P (colOf s k)) (ix2 row k)
      (by show (S1048576x64.rowMajor (ix2 row k)).val = (S262144x256.rowMajor (ix2 P (colOf s k))).val
          rw [Shape.rowMajor_val_two, Shape.rowMajor_val_two]
          show row.val * 64 + k.val = P.val * 256 + (colOf s k).val
          omega))

set_option maxHeartbeats 4000000 in
/-- Bias 8, repeated four times along a row. -/
theorem b8_at (c : Dev nD) (s : Fin 4) (j : Fin 64) :
    V m c main_v47 (ix2 (0 : Fin 1) (colOf s j)) = m ((c : Thread nD τ).loc main_arg8) (ix1 j) := by
  have e : (V m c main_v47 : S1x256.Idx → EReal)
      = shapeCast S1x256 (broadcastInDim S1x1x4x64 ![0, 1, 2, 3] bcast_S1x1x1x64_S1x1x4x64_0_1_2_3
          (shapeCast S1x1x1x64 (shapeCast S1x64 (m ((c : Thread nD τ).loc main_arg8)) shapeCasts_S64_S1x64) shapeCasts_S1x64_S1x1x1x64))
          shapeCasts_S1x1x4x64_S1x256 := by
    show StableHlo.after hostOps0 (fun b => m (c, b)) (Proc.devRef .tc main_v47) = _
    after_results
    rfl
  have hc : (colOf s j).val = 64 * s.val + j.val := rfl
  have hs : s.val < 4 := s.isLt
  have hj : j.val < 64 := j.isLt
  refine (congrFun e (ix2 (0 : Fin 1) (colOf s j))).trans ?_
  rw [shapeCast_apply _ shapeCasts_S1x1x4x64_S1x256 (ix2 (0 : Fin 1) (colOf s j)) (ix4 (0 : Fin 1) (0 : Fin 1) s j)
    (by show (S1x1x4x64.rowMajor (ix4 (0 : Fin 1) (0 : Fin 1) s j)).val = (S1x256.rowMajor (ix2 (0 : Fin 1) (colOf s j))).val
        rw [Shape.rowMajor_val_four, Shape.rowMajor_val_two]
        show (((0 : Fin 1).val * 1 + (0 : Fin 1).val) * 4 + s.val) * 64 + j.val = (0 : Fin 1).val * 256 + (colOf s j).val
        simp only [Fin.val_zero]; omega)]
  rw [broadcastInDim_apply _ bcast_S1x1x1x64_S1x1x4x64_0_1_2_3 _ (ix4 (0 : Fin 1) (0 : Fin 1) s j) (ix4 (0 : Fin 1) (0 : Fin 1) (0 : Fin 1) j)
    (fun a => by
      match a with
      | ⟨0, _⟩ => rfl
      | ⟨1, _⟩ => rfl
      | ⟨2, _⟩ => rfl
      | ⟨3, _⟩ => rfl)]
  rw [shapeCast_apply _ shapeCasts_S1x64_S1x1x1x64 (ix4 (0 : Fin 1) (0 : Fin 1) (0 : Fin 1) j) (ix2 (0 : Fin 1) j)
    (by show (S1x64.rowMajor (ix2 (0 : Fin 1) j)).val = (S1x1x1x64.rowMajor (ix4 (0 : Fin 1) (0 : Fin 1) (0 : Fin 1) j)).val
        rw [Shape.rowMajor_val_two, Shape.rowMajor_val_four]
        show (0 : Fin 1).val * 64 + j.val = (((0 : Fin 1).val * 1 + (0 : Fin 1).val) * 1 + (0 : Fin 1).val) * 64 + j.val
        simp only [Fin.val_zero])]
  exact shapeCast_apply _ shapeCasts_S64_S1x64 (ix2 (0 : Fin 1) j) (ix1 j)
    (by show (S64.rowMajor (ix1 j)).val = (S1x64.rowMajor (ix2 (0 : Fin 1) j)).val
        rw [Shape.rowMajor_val_one, Shape.rowMajor_val_two]
        show j.val = (0 : Fin 1).val * 64 + j.val
        simp only [Fin.val_zero]; omega)

set_option maxHeartbeats 4000000 in
/-- Bias 9, repeated four times along a row. -/
theorem b9_at (c : Dev nD) (s : Fin 4) (j : Fin 64) :
    V m c main_v51 (ix2 (0 : Fin 1) (colOf s j)) = m ((c : Thread nD τ).loc main_arg9) (ix1 j) := by
  have e : (V m c main_v51 : S1x256.Idx → EReal)
      = shapeCast S1x256 (broadcastInDim S1x1x4x64 ![0, 1, 2, 3] bcast_S1x1x1x64_S1x1x4x64_0_1_2_3
          (shapeCast S1x1x1x64 (shapeCast S1x64 (m ((c : Thread nD τ).loc main_arg9)) shapeCasts_S64_S1x64) shapeCasts_S1x64_S1x1x1x64))
          shapeCasts_S1x1x4x64_S1x256 := by
    show StableHlo.after hostOps0 (fun b => m (c, b)) (Proc.devRef .tc main_v51) = _
    after_results
    rfl
  have hc : (colOf s j).val = 64 * s.val + j.val := rfl
  have hs : s.val < 4 := s.isLt
  have hj : j.val < 64 := j.isLt
  refine (congrFun e (ix2 (0 : Fin 1) (colOf s j))).trans ?_
  rw [shapeCast_apply _ shapeCasts_S1x1x4x64_S1x256 (ix2 (0 : Fin 1) (colOf s j)) (ix4 (0 : Fin 1) (0 : Fin 1) s j)
    (by show (S1x1x4x64.rowMajor (ix4 (0 : Fin 1) (0 : Fin 1) s j)).val = (S1x256.rowMajor (ix2 (0 : Fin 1) (colOf s j))).val
        rw [Shape.rowMajor_val_four, Shape.rowMajor_val_two]
        show (((0 : Fin 1).val * 1 + (0 : Fin 1).val) * 4 + s.val) * 64 + j.val = (0 : Fin 1).val * 256 + (colOf s j).val
        simp only [Fin.val_zero]; omega)]
  rw [broadcastInDim_apply _ bcast_S1x1x1x64_S1x1x4x64_0_1_2_3 _ (ix4 (0 : Fin 1) (0 : Fin 1) s j) (ix4 (0 : Fin 1) (0 : Fin 1) (0 : Fin 1) j)
    (fun a => by
      match a with
      | ⟨0, _⟩ => rfl
      | ⟨1, _⟩ => rfl
      | ⟨2, _⟩ => rfl
      | ⟨3, _⟩ => rfl)]
  rw [shapeCast_apply _ shapeCasts_S1x64_S1x1x1x64 (ix4 (0 : Fin 1) (0 : Fin 1) (0 : Fin 1) j) (ix2 (0 : Fin 1) j)
    (by show (S1x64.rowMajor (ix2 (0 : Fin 1) j)).val = (S1x1x1x64.rowMajor (ix4 (0 : Fin 1) (0 : Fin 1) (0 : Fin 1) j)).val
        rw [Shape.rowMajor_val_two, Shape.rowMajor_val_four]
        show (0 : Fin 1).val * 64 + j.val = (((0 : Fin 1).val * 1 + (0 : Fin 1).val) * 1 + (0 : Fin 1).val) * 64 + j.val
        simp only [Fin.val_zero])]
  exact shapeCast_apply _ shapeCasts_S64_S1x64 (ix2 (0 : Fin 1) j) (ix1 j)
    (by show (S64.rowMajor (ix1 j)).val = (S1x64.rowMajor (ix2 (0 : Fin 1) j)).val
        rw [Shape.rowMajor_val_one, Shape.rowMajor_val_two]
        show j.val = (0 : Fin 1).val * 64 + j.val
        simp only [Fin.val_zero]; omega)

set_option maxHeartbeats 4000000 in
/-- Bias 10, repeated four times along a row. -/
theorem b10_at (c : Dev nD) (s : Fin 4) (j : Fin 64) :
    V m c main_v55 (ix2 (0 : Fin 1) (colOf s j)) = m ((c : Thread nD τ).loc main_arg10) (ix1 j) := by
  have e : (V m c main_v55 : S1x256.Idx → EReal)
      = shapeCast S1x256 (broadcastInDim S1x1x4x64 ![0, 1, 2, 3] bcast_S1x1x1x64_S1x1x4x64_0_1_2_3
          (shapeCast S1x1x1x64 (shapeCast S1x64 (m ((c : Thread nD τ).loc main_arg10)) shapeCasts_S64_S1x64) shapeCasts_S1x64_S1x1x1x64))
          shapeCasts_S1x1x4x64_S1x256 := by
    show StableHlo.after hostOps0 (fun b => m (c, b)) (Proc.devRef .tc main_v55) = _
    after_results
    rfl
  have hc : (colOf s j).val = 64 * s.val + j.val := rfl
  have hs : s.val < 4 := s.isLt
  have hj : j.val < 64 := j.isLt
  refine (congrFun e (ix2 (0 : Fin 1) (colOf s j))).trans ?_
  rw [shapeCast_apply _ shapeCasts_S1x1x4x64_S1x256 (ix2 (0 : Fin 1) (colOf s j)) (ix4 (0 : Fin 1) (0 : Fin 1) s j)
    (by show (S1x1x4x64.rowMajor (ix4 (0 : Fin 1) (0 : Fin 1) s j)).val = (S1x256.rowMajor (ix2 (0 : Fin 1) (colOf s j))).val
        rw [Shape.rowMajor_val_four, Shape.rowMajor_val_two]
        show (((0 : Fin 1).val * 1 + (0 : Fin 1).val) * 4 + s.val) * 64 + j.val = (0 : Fin 1).val * 256 + (colOf s j).val
        simp only [Fin.val_zero]; omega)]
  rw [broadcastInDim_apply _ bcast_S1x1x1x64_S1x1x4x64_0_1_2_3 _ (ix4 (0 : Fin 1) (0 : Fin 1) s j) (ix4 (0 : Fin 1) (0 : Fin 1) (0 : Fin 1) j)
    (fun a => by
      match a with
      | ⟨0, _⟩ => rfl
      | ⟨1, _⟩ => rfl
      | ⟨2, _⟩ => rfl
      | ⟨3, _⟩ => rfl)]
  rw [shapeCast_apply _ shapeCasts_S1x64_S1x1x1x64 (ix4 (0 : Fin 1) (0 : Fin 1) (0 : Fin 1) j) (ix2 (0 : Fin 1) j)
    (by show (S1x64.rowMajor (ix2 (0 : Fin 1) j)).val = (S1x1x1x64.rowMajor (ix4 (0 : Fin 1) (0 : Fin 1) (0 : Fin 1) j)).val
        rw [Shape.rowMajor_val_two, Shape.rowMajor_val_four]
        show (0 : Fin 1).val * 64 + j.val = (((0 : Fin 1).val * 1 + (0 : Fin 1).val) * 1 + (0 : Fin 1).val) * 64 + j.val
        simp only [Fin.val_zero])]
  exact shapeCast_apply _ shapeCasts_S64_S1x64 (ix2 (0 : Fin 1) j) (ix1 j)
    (by show (S64.rowMajor (ix1 j)).val = (S1x64.rowMajor (ix2 (0 : Fin 1) j)).val
        rw [Shape.rowMajor_val_one, Shape.rowMajor_val_two]
        show j.val = (0 : Fin 1).val * 64 + j.val
        simp only [Fin.val_zero]; omega)

end Cert.KernelIdeal.Fr

end
-- ==== Proof.IdealPrefix.lean ====
/-
  The host operations before the region, read a stretch at a time. The contents of a buffer after a line of operations are
  the fold of the operations' results, each operation rewriting the one buffer it writes and leaving the rest. Listing, in
  order, the buffer each of the 62 operations writes gives two facts at once. First, a buffer's final contents are what the
  stretch of the line ending at the operation that writes it leaves there, provided no later operation writes it again.
  Second, a stretch sees the launch contents on every buffer that nothing writes — the arguments — because the operations
  before the stretch do not touch them. So each staged array is a function of a short stretch and of the arguments alone.
  Within a stretch the fold is read from the outside in, one operation at a time, with the contents in between given
  names so that each step is taken on a small term; an operation with four operands hands them over as a family of four,
  which is read at each of its places.
-/
import proofs.«172371_j8151847928332_2_alg».proof.Proof.IdealSides
import Idealize.ShloMosaic.Lib.StableHlo.Run
import Idealize.ShloMosaic.PureOps.Ideal
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
open Idealize.ShloMosaic.ValueIdx

variable (m : (ℓ : Loc nD τ sig) → Buf (Elt Ideal) ℓ)
/-- The buffer each of the 62 host operations writes, in the operations' order. -/
abbrev written : List (Ref sig .tc) :=
  [main_v0, main_v1, main_v2, main_cst, main_v3, main_v4, main_v5, main_v6, main_v7, main_v8, main_v9, main_cst_0, main_v10, main_v11, main_v12, main_v13, main_v14, main_v15, main_v16, main_cst_1, main_v17, main_v18, main_v19, main_v20, main_v21, main_v22, main_v23, main_cst_2, main_v24, main_v25, main_v26, main_v27, main_v28, main_v29, main_v30, main_cst_3, main_v31, main_v32, main_v33, main_v34, main_v35, main_v36, main_v37, main_cst_4, main_v38, main_v39, main_v40, main_v41, main_v42, main_v43, main_v44, main_v45, main_v46, main_v47, main_v48, main_v49, main_v50, main_v51, main_v52, main_v53, main_v54, main_v55]

/-- Operation by operation, the one buffer it writes. -/
theorem ops_write : List.Forall₂ (fun (op : HloOp τ sig (Elt Ideal)) (y : Ref sig .tc) => op.writes = {Proc.devRef (τ := τ) .tc y})
    hostOps0 written := by
  repeat (first | exact List.Forall₂.nil | refine List.Forall₂.cons rfl ?_)

/-- A buffer that is not among those a line of operations writes is written by none of them. -/
theorem not_written {ops : List (HloOp τ sig (Elt Ideal))} {W : List (Ref sig .tc)}
    (h : List.Forall₂ (fun (op : HloOp τ sig (Elt Ideal)) (y : Ref sig .tc) => op.writes = {Proc.devRef (τ := τ) .tc y}) ops W)
    {r : Ref sig .tc} (hr : r ∉ W) : ∀ op ∈ ops, Proc.devRef (τ := τ) .tc r ∉ op.writes := by
  induction h with
  | nil => intro op hop; cases hop
  | cons hw _ ih =>
    intro op hop
    rcases List.mem_cons.mp hop with rfl | hop'
    · intro hmem
      have hw' : _ = _ := hw
      rw [hw', Finset.mem_singleton] at hmem
      exact hr (Proc.devRef_injective _ hmem ▸ List.mem_cons_self)
    · exact ih (fun hm => hr (List.mem_cons_of_mem _ hm)) op hop'

/-- The contents the region finds in buffer `r`, from a stretch of the operations alone: if no operation after the
    stretch writes `r`, they are what the stretch leaves there, started from contents `G` that agree with the launch
    contents on every buffer no operation writes (the arguments). -/
theorem V_seg (c : Dev nD) (k len : Nat) (r : Ref sig .tc) (hr : r ∉ (written).drop (k + len)) :
    ∃ G : Valuation τ sig (Elt Ideal),
      (∀ a : Ref sig .tc, a ∉ written → G (Proc.devRef .tc a) = m (c, Proc.devRef .tc a)) ∧
      V m c r = StableHlo.after (((hostOps0 (F := Ideal)).drop k).take len) G (Proc.devRef .tc r) := by
  refine ⟨StableHlo.after ((hostOps0 (F := Ideal)).take k) (fun b => m (c, b)), fun a ha => ?_, ?_⟩
  · exact StableHlo.after_of_forall_not_mem _ _ fun op hop => not_written ops_write ha op (List.mem_of_mem_take hop)
  · show StableHlo.after (List.flatten [hostOps0]) (fun b => m (c, b)) (Proc.devRef .tc r) = _
    have e : List.flatten [(hostOps0 (F := Ideal))]
        = (hostOps0.take k) ++ (((hostOps0.drop k).take len) ++ (hostOps0.drop (k + len))) := by
      rw [List.flatten_cons, List.flatten_nil, List.append_nil, ← List.drop_drop, List.take_append_drop, List.take_append_drop]
    rw [e, StableHlo.after_append, StableHlo.after_append,
      StableHlo.after_of_forall_not_mem _ _ (not_written (List.forall₂_drop (k + len) ops_write) hr)]

/-- A family of four given entry by entry, read at each of its four places. -/
theorem c4_0 {α : Fin 4 → Type} (a : α 0) (b : α 1) (c : α 2) (d : α 3) :
    ((Fin.cons a (Fin.cons b (Fin.cons c (Fin.cons d (fun i => i.elim0)))) : (k : Fin 4) → α k)) 0 = a := rfl
theorem c4_1 {α : Fin 4 → Type} (a : α 0) (b : α 1) (c : α 2) (d : α 3) :
    ((Fin.cons a (Fin.cons b (Fin.cons c (Fin.cons d (fun i => i.elim0)))) : (k : Fin 4) → α k)) 1 = b := rfl
theorem c4_2 {α : Fin 4 → Type} (a : α 0) (b : α 1) (c : α 2) (d : α 3) :
    ((Fin.cons a (Fin.cons b (Fin.cons c (Fin.cons d (fun i => i.elim0)))) : (k : Fin 4) → α k)) 2 = c := rfl
theorem c4_3 {α : Fin 4 → Type} (a : α 0) (b : α 1) (c : α 2) (d : α 3) :
    ((Fin.cons a (Fin.cons b (Fin.cons c (Fin.cons d (fun i => i.elim0)))) : (k : Fin 4) → α k)) 3 = d := rfl

/-- One layer of the fold: the operation now outermost, at its own buffer and at the others. -/
macro "host_layer" : tactic =>
  `(tactic| repeat (first
       | rw [StableHlo.nary4_result] | rw [StableHlo.nullary_result] | rw [StableHlo.unary_result]
       | (rw [StableHlo.nary_result_ne]; rotate_left; decide)
       | (rw [StableHlo.unary_result_ne]; rotate_left; decide)
       | (rw [StableHlo.nullary_result_ne]; rotate_left; decide)))

/-- A stretch of eight operations — round the weight, the zero pattern, the zero block, four bands, the stack — read
    layer by layer: the contents between the operations are named first, then put back one at a time from the outside in. -/
macro "host_stretch8" : tactic =>
  `(tactic| (
    rw [StableHlo.after_cons]; generalize h1 : HloOp.result _ _ = G1
    rw [StableHlo.after_cons]; generalize h2 : HloOp.result _ G1 = G2
    rw [StableHlo.after_cons]; generalize h3 : HloOp.result _ G2 = G3
    rw [StableHlo.after_cons]; generalize h4 : HloOp.result _ G3 = G4
    rw [StableHlo.after_cons]; generalize h5 : HloOp.result _ G4 = G5
    rw [StableHlo.after_cons]; generalize h6 : HloOp.result _ G5 = G6
    rw [StableHlo.after_cons]; generalize h7 : HloOp.result _ G6 = G7
    rw [StableHlo.after_cons, StableHlo.after_nil]
    host_layer; simp only [c4_0, c4_1, c4_2, c4_3]
    subst h7; host_layer; simp only [c4_0, c4_1, c4_2, c4_3]
    subst h6; host_layer; simp only [c4_0, c4_1, c4_2, c4_3]
    subst h5; host_layer; simp only [c4_0, c4_1, c4_2, c4_3]
    subst h4; host_layer; simp only [c4_0, c4_1, c4_2, c4_3]
    subst h3; host_layer
    subst h2; host_layer
    subst h1; host_layer))

end Cert.KernelIdeal.Fr

end
-- ==== Proof.BandMatrix.lean ====
/-
  A 256×256 matrix assembled from one 64×64 matrix `a` and a 64×64 filler `z`: four row bands of 64 rows, band `s` being
  four 64×64 blocks side by side with `a` in position `s` and `z` in the other three. Read at row `64 s + r` and column
  `64 s' + j` it is `a (r, j)` when `s = s'` and `z (r, j)` otherwise: the row picks the band, the column the block in it.
  Both steps are the library's reading of a concatenation at an index, once along each axis.
-/
import Idealize.ShloMosaic.Lib.Pipeline.Value
import Idealize.ShloMosaic.Lib.ValueIdx

noncomputable section

namespace Cert.BandMatrix

open Idealize.ShloMosaic Idealize.ShloMosaic.ValueIdx

variable {α : Type}

abbrev SBlock : Shape := ⟨2, ![64, 64]⟩
abbrev SBandRow : Shape := ⟨2, ![64, 256]⟩
abbrev SFull : Shape := ⟨2, ![256, 256]⟩

/-- Four 64×64 blocks side by side, read at column `64 s + j`: block `s` at column `j`. -/
theorem side_by_side (y0 y1 y2 y3 : SBlock.Idx → α)
    (h : Shape.Concatenates (([⟨SBlock, y0⟩, ⟨SBlock, y1⟩, ⟨SBlock, y2⟩, ⟨SBlock, y3⟩] : List ((s : Shape) × (s.Idx → α))).map (·.1)) SBandRow 1)
    (r : Fin 64) (s : Nat) (hs : s < 4) (j : Fin 64) (col : Fin 256) (hcol : col.val = 64 * s + j.val) :
    concatenate SBandRow 1 [⟨SBlock, y0⟩, ⟨SBlock, y1⟩, ⟨SBlock, y2⟩, ⟨SBlock, y3⟩] h (ix2 r col)
      = (match s with | 0 => y0 | 1 => y1 | 2 => y2 | _ => y3) (ix2 r j) := by
  have hi : ∀ b : Fin SBlock.rank, b.cast (rfl : SBlock.rank = SBandRow.rank) ≠ (1 : Fin SBandRow.rank) →
      ((ix2 r j : SBlock.Idx) b).val = ((ix2 r col : SBandRow.Idx) (b.cast rfl)).val := fun b hb => by
    match b with
    | ⟨0, _⟩ => rfl
    | ⟨1, _⟩ => exact absurd rfl hb
  interval_cases s
  · exact concatenate_apply_piece 1 _ h (ix2 r col) 0 (by simp) SBlock y0 rfl rfl 0 rfl (ix2 r j) hi (by show 0 + j.val = col.val; omega)
  · exact concatenate_apply_piece 1 _ h (ix2 r col) 1 (by simp) SBlock y1 rfl rfl 64 rfl (ix2 r j) hi (by show 64 + j.val = col.val; omega)
  · exact concatenate_apply_piece 1 _ h (ix2 r col) 2 (by simp) SBlock y2 rfl rfl 128 rfl (ix2 r j) hi (by show 128 + j.val = col.val; omega)
  · exact concatenate_apply_piece 1 _ h (ix2 r col) 3 (by simp) SBlock y3 rfl rfl 192 rfl (ix2 r j) hi (by show 192 + j.val = col.val; omega)

/-- Four 64×256 bands one above the other, read at row `64 s + r`: band `s` at row `r`. -/
theorem stacked (b0 b1 b2 b3 : SBandRow.Idx → α)
    (h : Shape.Concatenates (([⟨SBandRow, b0⟩, ⟨SBandRow, b1⟩, ⟨SBandRow, b2⟩, ⟨SBandRow, b3⟩] : List ((s : Shape) × (s.Idx → α))).map (·.1)) SFull 0)
    (s : Nat) (hs : s < 4) (r : Fin 64) (row : Fin 256) (hrow : row.val = 64 * s + r.val) (col : Fin 256) :
    concatenate SFull 0 [⟨SBandRow, b0⟩, ⟨SBandRow, b1⟩, ⟨SBandRow, b2⟩, ⟨SBandRow, b3⟩] h (ix2 row col)
      = (match s with | 0 => b0 | 1 => b1 | 2 => b2 | _ => b3) (ix2 r col) := by
  have hi : ∀ b : Fin SBandRow.rank, b.cast (rfl : SBandRow.rank = SFull.rank) ≠ (0 : Fin SFull.rank) →
      ((ix2 r col : SBandRow.Idx) b).val = ((ix2 row col : SFull.Idx) (b.cast rfl)).val := fun b hb => by
    match b with
    | ⟨0, _⟩ => exact absurd rfl hb
    | ⟨1, _⟩ => rfl
  interval_cases s
  · exact concatenate_apply_piece 0 _ h (ix2 row col) 0 (by simp) SBandRow b0 rfl rfl 0 rfl (ix2 r col) hi (by show 0 + r.val = row.val; omega)
  · exact concatenate_apply_piece 0 _ h (ix2 row col) 1 (by simp) SBandRow b1 rfl rfl 64 rfl (ix2 r col) hi (by show 64 + r.val = row.val; omega)
  · exact concatenate_apply_piece 0 _ h (ix2 row col) 2 (by simp) SBandRow b2 rfl rfl 128 rfl (ix2 r col) hi (by show 128 + r.val = row.val; omega)
  · exact concatenate_apply_piece 0 _ h (ix2 row col) 3 (by simp) SBandRow b3 rfl rfl 192 rfl (ix2 r col) hi (by show 192 + r.val = row.val; omega)

/-- The assembled matrix read at row `64 s + r`, column `64 s' + j`. -/
theorem band_apply (a z : SBlock.Idx → α)
    (h1 : Shape.Concatenates [SBlock, SBlock, SBlock, SBlock] SBandRow 1) (h0 : Shape.Concatenates [SBandRow, SBandRow, SBandRow, SBandRow] SFull 0)
    (s : Nat) (hs : s < 4) (r : Fin 64) (row : Fin 256) (hrow : row.val = 64 * s + r.val)
    (s' : Nat) (hs' : s' < 4) (j : Fin 64) (col : Fin 256) (hcol : col.val = 64 * s' + j.val) :
    concatenate SFull 0
      [⟨SBandRow, concatenate SBandRow 1 [⟨SBlock, a⟩, ⟨SBlock, z⟩, ⟨SBlock, z⟩, ⟨SBlock, z⟩] h1⟩,
       ⟨SBandRow, concatenate SBandRow 1 [⟨SBlock, z⟩, ⟨SBlock, a⟩, ⟨SBlock, z⟩, ⟨SBlock, z⟩] h1⟩,
       ⟨SBandRow, concatenate SBandRow 1 [⟨SBlock, z⟩, ⟨SBlock, z⟩, ⟨SBlock, a⟩, ⟨SBlock, z⟩] h1⟩,
       ⟨SBandRow, concatenate SBandRow 1 [⟨SBlock, z⟩, ⟨SBlock, z⟩, ⟨SBlock, z⟩, ⟨SBlock, a⟩] h1⟩] h0 (ix2 row col)
      = if s = s' then a (ix2 r j) else z (ix2 r j) := by
  rw [stacked _ _ _ _ h0 s hs r row hrow col]
  interval_cases s
  · refine (side_by_side a z z z h1 r s' hs' j col hcol).trans ?_
    interval_cases s' <;> simp
  · refine (side_by_side z a z z h1 r s' hs' j col hcol).trans ?_
    interval_cases s' <;> simp
  · refine (side_by_side z z a z h1 r s' hs' j col hcol).trans ?_
    interval_cases s' <;> simp
  · refine (side_by_side z z z a h1 r s' hs' j col hcol).trans ?_
    interval_cases s' <;> simp

end Cert.BandMatrix

end
-- ==== Proof.IdealWeight2.lean ====
/-
  The 256×256 matrix the host operations build from weight 2 of the arguments (w_ir): the weight is rounded to the
  narrower float format — the identity on the extended reals — and placed in the four diagonal positions of a 4×4 arrangement
  of 64×64 blocks, the twelve other blocks a broadcast of the zero constant. Reading the host prefix operation by operation
  gives the nested concatenation; reading that at row `64 s1 + r`, column `64 s + j` gives the weight's entry (r, j) when
  `s1 = s` and zero otherwise.
-/
import proofs.«172371_j8151847928332_2_alg».proof.Proof.IdealSides
import proofs.«172371_j8151847928332_2_alg».proof.Proof.IdealPrefix
import proofs.«172371_j8151847928332_2_alg».proof.Proof.BandMatrix
import proofs.«172371_j8151847928332_2_alg».proof.Proof.GruSpec
import Idealize.ShloMosaic.Lib.StableHlo.Run
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
open Idealize.ShloMosaic.ValueIdx
open Cert.GruSpec (colOf)

variable (m : (ℓ : Loc nD τ sig) → Buf (Elt Ideal) ℓ)

set_option backward.isDefEq.respectTransparency.types false in
set_option maxHeartbeats 1000000 in
/-- The array window 2 stages is weight 2 rounded (the identity on the extended reals) on the block diagonal, zero blocks elsewhere. -/
theorem w2_term (c : Dev nD) : (V m c main_v8 : S256x256.Idx → EReal)
    = concatenate S256x256 0
      [⟨S64x256, concatenate S64x256 1 [⟨S64x64, truncf .bf16 (m ((c : Thread nD τ).loc main_arg2)) bitsLt_bf16_f32⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, truncf .bf16 (m ((c : Thread nD τ).loc main_arg2)) bitsLt_bf16_f32⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, truncf .bf16 (m ((c : Thread nD τ).loc main_arg2)) bitsLt_bf16_f32⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, truncf .bf16 (m ((c : Thread nD τ).loc main_arg2)) bitsLt_bf16_f32⟩] concatenates_S64x64_S64x64_S64x64_S64x64_S64x256_d1⟩]
      concatenates_S64x256_S64x256_S64x256_S64x256_S256x256_d0 := by
  obtain ⟨G, hG, e⟩ := V_seg m c 2 8 main_v8 (by decide)
  refine e.trans ?_
  simp only [hostOps0, List.drop_succ_cons, List.drop_zero, List.take_succ_cons, List.take_zero]
  host_stretch8
  rw [hG main_arg2 (by decide)]

/-- Read at row `64 s1 + r`, column `64 s + j`: the weight's entry (r, j) on the diagonal, zero off it. -/
theorem w2_at (c : Dev nD) (s1 : Fin 4) (r : Fin 64) (s : Fin 4) (j : Fin 64) :
    V m c main_v8 (ix2 (colOf s1 r) (colOf s j)) = if s1 = s then (m ((c : Thread nD τ).loc main_arg2) (ix2 r j) : EReal) else (0 : EReal) := by
  refine (congrFun (w2_term m c) (ix2 (colOf s1 r) (colOf s j))).trans ?_
  refine (Cert.BandMatrix.band_apply (truncf .bf16 (m ((c : Thread nD τ).loc main_arg2)) bitsLt_bf16_f32) (broadcastInDim S64x64 ![] bcast_S_S64x64 (constant (F := Ideal) S_ .bf16 0x0000#16))
    concatenates_S64x64_S64x64_S64x64_S64x64_S64x256_d1 concatenates_S64x256_S64x256_S64x256_S64x256_S256x256_d0
    s1.val s1.isLt r (colOf s1 r) rfl s.val s.isLt j (colOf s j) rfl).trans ?_
  by_cases h : s1 = s
  · rw [if_pos h, if_pos (congrArg Fin.val h)]
    rfl
  · rw [if_neg h, if_neg (fun e => h (Fin.ext e))]
    show Ideal.ofBits .bf16 0x0000#16 = (0 : EReal)
    simp [Ideal.ofBits, Ideal.ieee]

end Cert.KernelIdeal.Fr

end
-- ==== Proof.IdealWeight3.lean ====
/-
  The 256×256 matrix the host operations build from weight 3 of the arguments (w_hr): the weight is rounded to the
  narrower float format — the identity on the extended reals — and placed in the four diagonal positions of a 4×4 arrangement
  of 64×64 blocks, the twelve other blocks a broadcast of the zero constant. Reading the host prefix operation by operation
  gives the nested concatenation; reading that at row `64 s1 + r`, column `64 s + j` gives the weight's entry (r, j) when
  `s1 = s` and zero otherwise.
-/
import proofs.«172371_j8151847928332_2_alg».proof.Proof.IdealSides
import proofs.«172371_j8151847928332_2_alg».proof.Proof.IdealPrefix
import proofs.«172371_j8151847928332_2_alg».proof.Proof.BandMatrix
import proofs.«172371_j8151847928332_2_alg».proof.Proof.GruSpec
import Idealize.ShloMosaic.Lib.StableHlo.Run
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
open Idealize.ShloMosaic.ValueIdx
open Cert.GruSpec (colOf)

variable (m : (ℓ : Loc nD τ sig) → Buf (Elt Ideal) ℓ)

set_option backward.isDefEq.respectTransparency.types false in
set_option maxHeartbeats 1000000 in
/-- The array window 3 stages is weight 3 rounded (the identity on the extended reals) on the block diagonal, zero blocks elsewhere. -/
theorem w3_term (c : Dev nD) : (V m c main_v15 : S256x256.Idx → EReal)
    = concatenate S256x256 0
      [⟨S64x256, concatenate S64x256 1 [⟨S64x64, truncf .bf16 (m ((c : Thread nD τ).loc main_arg3)) bitsLt_bf16_f32⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, truncf .bf16 (m ((c : Thread nD τ).loc main_arg3)) bitsLt_bf16_f32⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, truncf .bf16 (m ((c : Thread nD τ).loc main_arg3)) bitsLt_bf16_f32⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, truncf .bf16 (m ((c : Thread nD τ).loc main_arg3)) bitsLt_bf16_f32⟩] concatenates_S64x64_S64x64_S64x64_S64x64_S64x256_d1⟩]
      concatenates_S64x256_S64x256_S64x256_S64x256_S256x256_d0 := by
  obtain ⟨G, hG, e⟩ := V_seg m c 10 8 main_v15 (by decide)
  refine e.trans ?_
  simp only [hostOps0, List.drop_succ_cons, List.drop_zero, List.take_succ_cons, List.take_zero]
  host_stretch8
  rw [hG main_arg3 (by decide)]

/-- Read at row `64 s1 + r`, column `64 s + j`: the weight's entry (r, j) on the diagonal, zero off it. -/
theorem w3_at (c : Dev nD) (s1 : Fin 4) (r : Fin 64) (s : Fin 4) (j : Fin 64) :
    V m c main_v15 (ix2 (colOf s1 r) (colOf s j)) = if s1 = s then (m ((c : Thread nD τ).loc main_arg3) (ix2 r j) : EReal) else (0 : EReal) := by
  refine (congrFun (w3_term m c) (ix2 (colOf s1 r) (colOf s j))).trans ?_
  refine (Cert.BandMatrix.band_apply (truncf .bf16 (m ((c : Thread nD τ).loc main_arg3)) bitsLt_bf16_f32) (broadcastInDim S64x64 ![] bcast_S_S64x64 (constant (F := Ideal) S_ .bf16 0x0000#16))
    concatenates_S64x64_S64x64_S64x64_S64x64_S64x256_d1 concatenates_S64x256_S64x256_S64x256_S64x256_S256x256_d0
    s1.val s1.isLt r (colOf s1 r) rfl s.val s.isLt j (colOf s j) rfl).trans ?_
  by_cases h : s1 = s
  · rw [if_pos h, if_pos (congrArg Fin.val h)]
    rfl
  · rw [if_neg h, if_neg (fun e => h (Fin.ext e))]
    show Ideal.ofBits .bf16 0x0000#16 = (0 : EReal)
    simp [Ideal.ofBits, Ideal.ieee]

end Cert.KernelIdeal.Fr

end
-- ==== Proof.IdealWeight4.lean ====
/-
  The 256×256 matrix the host operations build from weight 4 of the arguments (w_iz): the weight is rounded to the
  narrower float format — the identity on the extended reals — and placed in the four diagonal positions of a 4×4 arrangement
  of 64×64 blocks, the twelve other blocks a broadcast of the zero constant. Reading the host prefix operation by operation
  gives the nested concatenation; reading that at row `64 s1 + r`, column `64 s + j` gives the weight's entry (r, j) when
  `s1 = s` and zero otherwise.
-/
import proofs.«172371_j8151847928332_2_alg».proof.Proof.IdealSides
import proofs.«172371_j8151847928332_2_alg».proof.Proof.IdealPrefix
import proofs.«172371_j8151847928332_2_alg».proof.Proof.BandMatrix
import proofs.«172371_j8151847928332_2_alg».proof.Proof.GruSpec
import Idealize.ShloMosaic.Lib.StableHlo.Run
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
open Idealize.ShloMosaic.ValueIdx
open Cert.GruSpec (colOf)

variable (m : (ℓ : Loc nD τ sig) → Buf (Elt Ideal) ℓ)

set_option backward.isDefEq.respectTransparency.types false in
set_option maxHeartbeats 1000000 in
/-- The array window 4 stages is weight 4 rounded (the identity on the extended reals) on the block diagonal, zero blocks elsewhere. -/
theorem w4_term (c : Dev nD) : (V m c main_v22 : S256x256.Idx → EReal)
    = concatenate S256x256 0
      [⟨S64x256, concatenate S64x256 1 [⟨S64x64, truncf .bf16 (m ((c : Thread nD τ).loc main_arg4)) bitsLt_bf16_f32⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, truncf .bf16 (m ((c : Thread nD τ).loc main_arg4)) bitsLt_bf16_f32⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, truncf .bf16 (m ((c : Thread nD τ).loc main_arg4)) bitsLt_bf16_f32⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, truncf .bf16 (m ((c : Thread nD τ).loc main_arg4)) bitsLt_bf16_f32⟩] concatenates_S64x64_S64x64_S64x64_S64x64_S64x256_d1⟩]
      concatenates_S64x256_S64x256_S64x256_S64x256_S256x256_d0 := by
  obtain ⟨G, hG, e⟩ := V_seg m c 18 8 main_v22 (by decide)
  refine e.trans ?_
  simp only [hostOps0, List.drop_succ_cons, List.drop_zero, List.take_succ_cons, List.take_zero]
  host_stretch8
  rw [hG main_arg4 (by decide)]

/-- Read at row `64 s1 + r`, column `64 s + j`: the weight's entry (r, j) on the diagonal, zero off it. -/
theorem w4_at (c : Dev nD) (s1 : Fin 4) (r : Fin 64) (s : Fin 4) (j : Fin 64) :
    V m c main_v22 (ix2 (colOf s1 r) (colOf s j)) = if s1 = s then (m ((c : Thread nD τ).loc main_arg4) (ix2 r j) : EReal) else (0 : EReal) := by
  refine (congrFun (w4_term m c) (ix2 (colOf s1 r) (colOf s j))).trans ?_
  refine (Cert.BandMatrix.band_apply (truncf .bf16 (m ((c : Thread nD τ).loc main_arg4)) bitsLt_bf16_f32) (broadcastInDim S64x64 ![] bcast_S_S64x64 (constant (F := Ideal) S_ .bf16 0x0000#16))
    concatenates_S64x64_S64x64_S64x64_S64x64_S64x256_d1 concatenates_S64x256_S64x256_S64x256_S64x256_S256x256_d0
    s1.val s1.isLt r (colOf s1 r) rfl s.val s.isLt j (colOf s j) rfl).trans ?_
  by_cases h : s1 = s
  · rw [if_pos h, if_pos (congrArg Fin.val h)]
    rfl
  · rw [if_neg h, if_neg (fun e => h (Fin.ext e))]
    show Ideal.ofBits .bf16 0x0000#16 = (0 : EReal)
    simp [Ideal.ofBits, Ideal.ieee]

end Cert.KernelIdeal.Fr

end
-- ==== Proof.IdealWeight5.lean ====
/-
  The 256×256 matrix the host operations build from weight 5 of the arguments (w_hz): the weight is rounded to the
  narrower float format — the identity on the extended reals — and placed in the four diagonal positions of a 4×4 arrangement
  of 64×64 blocks, the twelve other blocks a broadcast of the zero constant. Reading the host prefix operation by operation
  gives the nested concatenation; reading that at row `64 s1 + r`, column `64 s + j` gives the weight's entry (r, j) when
  `s1 = s` and zero otherwise.
-/
import proofs.«172371_j8151847928332_2_alg».proof.Proof.IdealSides
import proofs.«172371_j8151847928332_2_alg».proof.Proof.IdealPrefix
import proofs.«172371_j8151847928332_2_alg».proof.Proof.BandMatrix
import proofs.«172371_j8151847928332_2_alg».proof.Proof.GruSpec
import Idealize.ShloMosaic.Lib.StableHlo.Run
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
open Idealize.ShloMosaic.ValueIdx
open Cert.GruSpec (colOf)

variable (m : (ℓ : Loc nD τ sig) → Buf (Elt Ideal) ℓ)

set_option backward.isDefEq.respectTransparency.types false in
set_option maxHeartbeats 1000000 in
/-- The array window 5 stages is weight 5 rounded (the identity on the extended reals) on the block diagonal, zero blocks elsewhere. -/
theorem w5_term (c : Dev nD) : (V m c main_v29 : S256x256.Idx → EReal)
    = concatenate S256x256 0
      [⟨S64x256, concatenate S64x256 1 [⟨S64x64, truncf .bf16 (m ((c : Thread nD τ).loc main_arg5)) bitsLt_bf16_f32⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, truncf .bf16 (m ((c : Thread nD τ).loc main_arg5)) bitsLt_bf16_f32⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, truncf .bf16 (m ((c : Thread nD τ).loc main_arg5)) bitsLt_bf16_f32⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, truncf .bf16 (m ((c : Thread nD τ).loc main_arg5)) bitsLt_bf16_f32⟩] concatenates_S64x64_S64x64_S64x64_S64x64_S64x256_d1⟩]
      concatenates_S64x256_S64x256_S64x256_S64x256_S256x256_d0 := by
  obtain ⟨G, hG, e⟩ := V_seg m c 26 8 main_v29 (by decide)
  refine e.trans ?_
  simp only [hostOps0, List.drop_succ_cons, List.drop_zero, List.take_succ_cons, List.take_zero]
  host_stretch8
  rw [hG main_arg5 (by decide)]

/-- Read at row `64 s1 + r`, column `64 s + j`: the weight's entry (r, j) on the diagonal, zero off it. -/
theorem w5_at (c : Dev nD) (s1 : Fin 4) (r : Fin 64) (s : Fin 4) (j : Fin 64) :
    V m c main_v29 (ix2 (colOf s1 r) (colOf s j)) = if s1 = s then (m ((c : Thread nD τ).loc main_arg5) (ix2 r j) : EReal) else (0 : EReal) := by
  refine (congrFun (w5_term m c) (ix2 (colOf s1 r) (colOf s j))).trans ?_
  refine (Cert.BandMatrix.band_apply (truncf .bf16 (m ((c : Thread nD τ).loc main_arg5)) bitsLt_bf16_f32) (broadcastInDim S64x64 ![] bcast_S_S64x64 (constant (F := Ideal) S_ .bf16 0x0000#16))
    concatenates_S64x64_S64x64_S64x64_S64x64_S64x256_d1 concatenates_S64x256_S64x256_S64x256_S64x256_S256x256_d0
    s1.val s1.isLt r (colOf s1 r) rfl s.val s.isLt j (colOf s j) rfl).trans ?_
  by_cases h : s1 = s
  · rw [if_pos h, if_pos (congrArg Fin.val h)]
    rfl
  · rw [if_neg h, if_neg (fun e => h (Fin.ext e))]
    show Ideal.ofBits .bf16 0x0000#16 = (0 : EReal)
    simp [Ideal.ofBits, Ideal.ieee]

end Cert.KernelIdeal.Fr

end
-- ==== Proof.IdealWeight6.lean ====
/-
  The 256×256 matrix the host operations build from weight 6 of the arguments (w_in): the weight is rounded to the
  narrower float format — the identity on the extended reals — and placed in the four diagonal positions of a 4×4 arrangement
  of 64×64 blocks, the twelve other blocks a broadcast of the zero constant. Reading the host prefix operation by operation
  gives the nested concatenation; reading that at row `64 s1 + r`, column `64 s + j` gives the weight's entry (r, j) when
  `s1 = s` and zero otherwise.
-/
import proofs.«172371_j8151847928332_2_alg».proof.Proof.IdealSides
import proofs.«172371_j8151847928332_2_alg».proof.Proof.IdealPrefix
import proofs.«172371_j8151847928332_2_alg».proof.Proof.BandMatrix
import proofs.«172371_j8151847928332_2_alg».proof.Proof.GruSpec
import Idealize.ShloMosaic.Lib.StableHlo.Run
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
open Idealize.ShloMosaic.ValueIdx
open Cert.GruSpec (colOf)

variable (m : (ℓ : Loc nD τ sig) → Buf (Elt Ideal) ℓ)

set_option backward.isDefEq.respectTransparency.types false in
set_option maxHeartbeats 1000000 in
/-- The array window 6 stages is weight 6 rounded (the identity on the extended reals) on the block diagonal, zero blocks elsewhere. -/
theorem w6_term (c : Dev nD) : (V m c main_v36 : S256x256.Idx → EReal)
    = concatenate S256x256 0
      [⟨S64x256, concatenate S64x256 1 [⟨S64x64, truncf .bf16 (m ((c : Thread nD τ).loc main_arg6)) bitsLt_bf16_f32⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, truncf .bf16 (m ((c : Thread nD τ).loc main_arg6)) bitsLt_bf16_f32⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, truncf .bf16 (m ((c : Thread nD τ).loc main_arg6)) bitsLt_bf16_f32⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, truncf .bf16 (m ((c : Thread nD τ).loc main_arg6)) bitsLt_bf16_f32⟩] concatenates_S64x64_S64x64_S64x64_S64x64_S64x256_d1⟩]
      concatenates_S64x256_S64x256_S64x256_S64x256_S256x256_d0 := by
  obtain ⟨G, hG, e⟩ := V_seg m c 34 8 main_v36 (by decide)
  refine e.trans ?_
  simp only [hostOps0, List.drop_succ_cons, List.drop_zero, List.take_succ_cons, List.take_zero]
  host_stretch8
  rw [hG main_arg6 (by decide)]

/-- Read at row `64 s1 + r`, column `64 s + j`: the weight's entry (r, j) on the diagonal, zero off it. -/
theorem w6_at (c : Dev nD) (s1 : Fin 4) (r : Fin 64) (s : Fin 4) (j : Fin 64) :
    V m c main_v36 (ix2 (colOf s1 r) (colOf s j)) = if s1 = s then (m ((c : Thread nD τ).loc main_arg6) (ix2 r j) : EReal) else (0 : EReal) := by
  refine (congrFun (w6_term m c) (ix2 (colOf s1 r) (colOf s j))).trans ?_
  refine (Cert.BandMatrix.band_apply (truncf .bf16 (m ((c : Thread nD τ).loc main_arg6)) bitsLt_bf16_f32) (broadcastInDim S64x64 ![] bcast_S_S64x64 (constant (F := Ideal) S_ .bf16 0x0000#16))
    concatenates_S64x64_S64x64_S64x64_S64x64_S64x256_d1 concatenates_S64x256_S64x256_S64x256_S64x256_S256x256_d0
    s1.val s1.isLt r (colOf s1 r) rfl s.val s.isLt j (colOf s j) rfl).trans ?_
  by_cases h : s1 = s
  · rw [if_pos h, if_pos (congrArg Fin.val h)]
    rfl
  · rw [if_neg h, if_neg (fun e => h (Fin.ext e))]
    show Ideal.ofBits .bf16 0x0000#16 = (0 : EReal)
    simp [Ideal.ofBits, Ideal.ieee]

end Cert.KernelIdeal.Fr

end
-- ==== Proof.IdealWeight7.lean ====
/-
  The 256×256 matrix the host operations build from weight 7 of the arguments (w_hn): the weight is rounded to the
  narrower float format — the identity on the extended reals — and placed in the four diagonal positions of a 4×4 arrangement
  of 64×64 blocks, the twelve other blocks a broadcast of the zero constant. Reading the host prefix operation by operation
  gives the nested concatenation; reading that at row `64 s1 + r`, column `64 s + j` gives the weight's entry (r, j) when
  `s1 = s` and zero otherwise.
-/
import proofs.«172371_j8151847928332_2_alg».proof.Proof.IdealSides
import proofs.«172371_j8151847928332_2_alg».proof.Proof.IdealPrefix
import proofs.«172371_j8151847928332_2_alg».proof.Proof.BandMatrix
import proofs.«172371_j8151847928332_2_alg».proof.Proof.GruSpec
import Idealize.ShloMosaic.Lib.StableHlo.Run
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
open Idealize.ShloMosaic.ValueIdx
open Cert.GruSpec (colOf)

variable (m : (ℓ : Loc nD τ sig) → Buf (Elt Ideal) ℓ)

set_option backward.isDefEq.respectTransparency.types false in
set_option maxHeartbeats 1000000 in
/-- The array window 7 stages is weight 7 rounded (the identity on the extended reals) on the block diagonal, zero blocks elsewhere. -/
theorem w7_term (c : Dev nD) : (V m c main_v43 : S256x256.Idx → EReal)
    = concatenate S256x256 0
      [⟨S64x256, concatenate S64x256 1 [⟨S64x64, truncf .bf16 (m ((c : Thread nD τ).loc main_arg7)) bitsLt_bf16_f32⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, truncf .bf16 (m ((c : Thread nD τ).loc main_arg7)) bitsLt_bf16_f32⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, truncf .bf16 (m ((c : Thread nD τ).loc main_arg7)) bitsLt_bf16_f32⟩, ⟨S64x64, broadcastInDim S64x64 ![] bcast_S_S64x64 (constant (F := Ideal) S_ .bf16 0x0000#16)⟩] concatenates_S64x64_S64x64_S64x64_S64x64_S64x256_d1⟩,
       ⟨S64x256, concatenate S64x256 1 [⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, broadcastInDim S64x64 ![] bcast_S_S64x64 (constant (F := Ideal) S_ .bf16 0x0000#16)⟩, ⟨S64x64, truncf .bf16 (m ((c : Thread nD τ).loc main_arg7)) bitsLt_bf16_f32⟩] concatenates_S64x64_S64x64_S64x64_S64x64_S64x256_d1⟩]
      concatenates_S64x256_S64x256_S64x256_S64x256_S256x256_d0 := by
  obtain ⟨G, hG, e⟩ := V_seg m c 42 8 main_v43 (by decide)
  refine e.trans ?_
  simp only [hostOps0, List.drop_succ_cons, List.drop_zero, List.take_succ_cons, List.take_zero]
  host_stretch8
  rw [hG main_arg7 (by decide)]

/-- Read at row `64 s1 + r`, column `64 s + j`: the weight's entry (r, j) on the diagonal, zero off it. -/
theorem w7_at (c : Dev nD) (s1 : Fin 4) (r : Fin 64) (s : Fin 4) (j : Fin 64) :
    V m c main_v43 (ix2 (colOf s1 r) (colOf s j)) = if s1 = s then (m ((c : Thread nD τ).loc main_arg7) (ix2 r j) : EReal) else (0 : EReal) := by
  refine (congrFun (w7_term m c) (ix2 (colOf s1 r) (colOf s j))).trans ?_
  refine (Cert.BandMatrix.band_apply (truncf .bf16 (m ((c : Thread nD τ).loc main_arg7)) bitsLt_bf16_f32) (broadcastInDim S64x64 ![] bcast_S_S64x64 (constant (F := Ideal) S_ .bf16 0x0000#16))
    concatenates_S64x64_S64x64_S64x64_S64x64_S64x256_d1 concatenates_S64x256_S64x256_S64x256_S64x256_S256x256_d0
    s1.val s1.isLt r (colOf s1 r) rfl s.val s.isLt j (colOf s j) rfl).trans ?_
  by_cases h : s1 = s
  · rw [if_pos h, if_pos (congrArg Fin.val h)]
    rfl
  · rw [if_neg h, if_neg (fun e => h (Fin.ext e))]
    show Ideal.ofBits .bf16 0x0000#16 = (0 : EReal)
    simp [Ideal.ofBits, Ideal.ieee]

end Cert.KernelIdeal.Fr

end
-- ==== Proof.RefIsCell.lean ====
/-
  The reference program is a gated recurrent cell written out operation by operation, and this module reads its result
  at one entry. Fix a row `p` and a column `j`. Each of the six matrix products is, at `(p, j)`, the 64-term sum over `k`
  of the left array at `(p, k)` times the weight at `(k, j)`; a bias, broadcast first to one row and then to all rows, is
  read at `j`; every other operation acts entry by entry. So at `(p, j)` the program computes

    r = 1 / (1 + e^(−(x·W_ir + h·W_hr + b_r))),   z = 1 / (1 + e^(−(x·W_iz + h·W_hz + b_z))),
    n = tanh (x·W_in + (r ⊙ h)·W_hn + b_n),        result = (1 − z) · h + z · n,

  with each `1` the float pattern of 1.0. On the extended reals the logistic function is by definition
  `1 / (1 + e^(−v))` with the number one, and the pattern of 1.0 denotes the number one, so `r` and `z` are the logistic
  function of their sums: the two gates of the cell. The product inside `n` takes, at `(p, k)`, the reset gate at `(p, k)`
  times `h (p, k)`, which is the cell's reset state read at `(p, k)`. The last line is the cell's blend as it stands. Hence
  the program's result is the cell, entry by entry, with no arithmetic law used beyond the value of the pattern of 1.0.
-/
import proofs.«172371_j8151847928332_2_alg».proof.Proof.Gen.ReferenceIdeal.Read
import proofs.«172371_j8151847928332_2_alg».proof.Proof.GruSpec

noncomputable section

namespace Cert.ReferenceIdeal.RefCell

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The arrays of the three kinds, as functions from an index to an extended real. -/
abbrev Rows := (⟨S1048576x64, .f32⟩ : BufTy).Contents (Elt Ideal)
abbrev Weight := (⟨S64x64, .f32⟩ : BufTy).Contents (Elt Ideal)
abbrev Bias := (⟨S64, .f32⟩ : BufTy).Contents (Elt Ideal)

/-- Two rank-2 indices with the same two coordinates are equal. -/
local macro "coords2" : tactic =>
  `(tactic| exact funext fun a => Fin.ext (by match a with | ⟨0, _⟩ => rfl | ⟨1, _⟩ => rfl))
/-- Two rank-1 indices with the same coordinate are equal. -/
local macro "coords1" : tactic =>
  `(tactic| exact funext fun a => Fin.ext (by match a with | ⟨0, _⟩ => rfl))

/-- The logistic function as the program spells it, with the pattern of 1.0 for both ones. -/
theorem logistic_spelled (v : EReal) :
    Ideal.div (Ideal.ofBits .f32 0x3F800000#32) (Ideal.ofBits .f32 0x3F800000#32 + Ideal.exp (-v)) = Ideal.logistic v := by
  rw [Cert.GruSpec.ofBits_one]; rfl

/-- A 64-term sum whose left factor runs along row `p` and whose right factor runs down column `j` is the product. -/
theorem prod_at (a : Rows) (W : Weight) (p : Fin 1048576) (j : Fin 64)
    (L : Fin 64 → S1048576x64.Idx) (R : Fin 64 → S64x64.Idx) (hL : ∀ k, L k = ix2 p k) (hR : ∀ k, R k = ix2 k j) :
    ∑ k : Fin 64, a (L k) * W (R k) = Cert.GruSpec.dot a W p j := by
  unfold Cert.GruSpec.dot
  exact Finset.sum_congr rfl fun k _ => by rw [hL k, hR k]

/-! The five products of an argument array with a weight, at `(p, j)`. -/
theorem v0_at (x0 : Rows) (x2 : Weight) (p : Fin 1048576) (j : Fin 64) :
    val_main_v0 (F := Ideal) x0 x2 (ix2 p j) = Cert.GruSpec.dot x0 x2 p j :=
  (val_main_v0_apply x0 x2 (ix2 p j)).trans
    (prod_at x0 x2 p j (lidx_main_v0 (ix2 p j)) (ridx_main_v0 (ix2 p j)) (fun k => by coords2) (fun k => by coords2))
theorem v1_at (x1 : Rows) (x3 : Weight) (p : Fin 1048576) (j : Fin 64) :
    val_main_v1 (F := Ideal) x1 x3 (ix2 p j) = Cert.GruSpec.dot x1 x3 p j :=
  (val_main_v1_apply x1 x3 (ix2 p j)).trans
    (prod_at x1 x3 p j (lidx_main_v1 (ix2 p j)) (ridx_main_v1 (ix2 p j)) (fun k => by coords2) (fun k => by coords2))
theorem v12_at (x0 : Rows) (x4 : Weight) (p : Fin 1048576) (j : Fin 64) :
    val_main_v12 (F := Ideal) x0 x4 (ix2 p j) = Cert.GruSpec.dot x0 x4 p j :=
  (val_main_v12_apply x0 x4 (ix2 p j)).trans
    (prod_at x0 x4 p j (lidx_main_v12 (ix2 p j)) (ridx_main_v12 (ix2 p j)) (fun k => by coords2) (fun k => by coords2))
theorem v13_at (x1 : Rows) (x5 : Weight) (p : Fin 1048576) (j : Fin 64) :
    val_main_v13 (F := Ideal) x1 x5 (ix2 p j) = Cert.GruSpec.dot x1 x5 p j :=
  (val_main_v13_apply x1 x5 (ix2 p j)).trans
    (prod_at x1 x5 p j (lidx_main_v13 (ix2 p j)) (ridx_main_v13 (ix2 p j)) (fun k => by coords2) (fun k => by coords2))
theorem v24_at (x0 : Rows) (x6 : Weight) (p : Fin 1048576) (j : Fin 64) :
    val_main_v24 (F := Ideal) x0 x6 (ix2 p j) = Cert.GruSpec.dot x0 x6 p j :=
  (val_main_v24_apply x0 x6 (ix2 p j)).trans
    (prod_at x0 x6 p j (lidx_main_v24 (ix2 p j)) (ridx_main_v24 (ix2 p j)) (fun k => by coords2) (fun k => by coords2))

/-- The reset gate: the program's `1 / (1 + e^(−(x·W_ir + h·W_hr + b_r)))` at `(p, j)`. -/
theorem r_at (x0 x1 : Rows) (x2 x3 : Weight) (x8 : Bias) (p : Fin 1048576) (j : Fin 64) :
    val_main_v11 (F := Ideal) x0 x1 x2 x3 x8 (ix2 p j) = Cert.GruSpec.gate x0 x1 x2 x3 x8 p j := by
  have eb : idx_main_v3 (idx_main_v4 (ix2 p j)) = ix1 j := by coords1
  rw [val_main_v11_apply, val_main_v10_apply, val_main_cst_0_apply, val_main_v9_apply, val_main_v8_apply,
    val_main_cst_apply, val_main_v7_apply, val_main_v6_apply, val_main_v5_apply, val_main_v2_apply, v0_at, v1_at,
    val_main_v4_apply, val_main_v3_apply, eb]
  simp only [Ideal.hostDivf_def, Ideal.addf_def, Ideal.hostUnary_exp_def, Ideal.hostNegf_def, Ideal.negf_def,
    Ideal.ofBits_def, logistic_spelled]
  rfl

/-- The update gate: the program's `1 / (1 + e^(−(x·W_iz + h·W_hz + b_z)))` at `(p, j)`. -/
theorem z_at (x0 x1 : Rows) (x4 x5 : Weight) (x9 : Bias) (p : Fin 1048576) (j : Fin 64) :
    val_main_v23 (F := Ideal) x0 x1 x4 x5 x9 (ix2 p j) = Cert.GruSpec.gate x0 x1 x4 x5 x9 p j := by
  have eb : idx_main_v15 (idx_main_v16 (ix2 p j)) = ix1 j := by coords1
  rw [val_main_v23_apply, val_main_v22_apply, val_main_cst_2_apply, val_main_v21_apply, val_main_v20_apply,
    val_main_cst_1_apply, val_main_v19_apply, val_main_v18_apply, val_main_v17_apply, val_main_v14_apply, v12_at, v13_at,
    val_main_v16_apply, val_main_v15_apply, eb]
  simp only [Ideal.hostDivf_def, Ideal.addf_def, Ideal.hostUnary_exp_def, Ideal.hostNegf_def, Ideal.negf_def,
    Ideal.ofBits_def, logistic_spelled]
  rfl

/-- The product of the reset state with its weight: at `(p, k)` the program's left factor is the reset gate times `h`. -/
theorem v26_at (x0 x1 : Rows) (x2 x3 x7 : Weight) (x8 : Bias) (p : Fin 1048576) (j : Fin 64) :
    val_main_v26 (F := Ideal) x0 x1 x2 x3 x7 x8 (ix2 p j)
      = Cert.GruSpec.dot (Cert.GruSpec.resetState x0 x1 x2 x3 x8) x7 p j := by
  rw [val_main_v26_apply]
  unfold Cert.GruSpec.dot
  refine Finset.sum_congr rfl fun k _ => ?_
  have el : lidx_main_v26 (ix2 p j) k = ix2 p k := by coords2
  have er : ridx_main_v26 (ix2 p j) k = ix2 k j := by coords2
  rw [el, er, val_main_v25_apply, r_at]
  rfl

/-- The candidate state: the program's `tanh (x·W_in + (r ⊙ h)·W_hn + b_n)` at `(p, j)`. -/
theorem n_at (x0 x1 : Rows) (x2 x3 x6 x7 : Weight) (x8 x10 : Bias) (p : Fin 1048576) (j : Fin 64) :
    val_main_v31 (F := Ideal) x0 x1 x2 x3 x6 x7 x8 x10 (ix2 p j) = Cert.GruSpec.cand x0 x1 x2 x3 x6 x7 x8 x10 p j := by
  have eb : idx_main_v28 (idx_main_v29 (ix2 p j)) = ix1 j := by coords1
  rw [val_main_v31_apply, val_main_v30_apply, val_main_v27_apply, v24_at, v26_at, val_main_v29_apply,
    val_main_v28_apply, eb]
  simp only [Ideal.addf_def, Ideal.hostUnary_tanh_def]
  rfl

/-- The reference program's result is the cell. -/
theorem ref_is_cell (x0 x1 : (⟨S1048576x64, .f32⟩ : BufTy).Contents (Elt Ideal))
    (x2 x3 x4 x5 x6 x7 : (⟨S64x64, .f32⟩ : BufTy).Contents (Elt Ideal))
    (x8 x9 x10 : (⟨S64, .f32⟩ : BufTy).Contents (Elt Ideal)) :
    Cert.ReferenceIdeal.Read.val_main_v36 (F := Ideal) x0 x1 x2 x3 x4 x5 x6 x7 x8 x9 x10
      = Cert.GruSpec.cell x0 x1 x2 x3 x4 x5 x6 x7 x8 x9 x10 := by
  funext i
  obtain ⟨p, j, rfl⟩ : ∃ (p : Fin 1048576) (j : Fin 64), i = ix2 p j := ⟨i 0, i 1, eq_ix2 i⟩
  rw [val_main_v36_apply, val_main_v35_apply, val_main_v34_apply, val_main_v33_apply, val_main_v32_apply,
    val_main_cst_3_apply, z_at, n_at]
  simp only [Ideal.addf_def, Ideal.mulf_def, Ideal.subf_def, Ideal.ofBits_def]
  rfl

/-- The same, on the term the program's run states for its result. -/
theorem run_term_is_cell (x0 x1 : (⟨S1048576x64, .f32⟩ : BufTy).Contents (Elt Ideal))
    (x2 x3 x4 x5 x6 x7 : (⟨S64x64, .f32⟩ : BufTy).Contents (Elt Ideal))
    (x8 x9 x10 : (⟨S64, .f32⟩ : BufTy).Contents (Elt Ideal)) :
    (addf (mulf (subf (broadcastInDim S1048576x64 ![] bcast_S_S1048576x64 (constant S_ .f32 0x3F800000#32)) (Host.divf (broadcastInDim S1048576x64 ![] bcast_S_S1048576x64 (constant S_ .f32 0x3F800000#32)) (addf (broadcastInDim S1048576x64 ![] bcast_S_S1048576x64 (constant S_ .f32 0x3F800000#32)) (Host.exp (Host.negf (addf (addf (Host.dotGeneral (φ₁ := .f32) (φ₂ := .f32) dot_S1048576x64_S64x64_S1048576x64_1_0_0_1_n_n none (x0) (x4)) (Host.dotGeneral (φ₁ := .f32) (φ₂ := .f32) dot_S1048576x64_S64x64_S1048576x64_1_0_0_1_n_n none (x1) (x5))) (broadcastInDim S1048576x64 ![0, 1] bcast_S1x64_S1048576x64_0_1 (broadcastInDim S1x64 ![1] bcast_S64_S1x64_1 (x9))))))))) (x1)) (mulf (Host.divf (broadcastInDim S1048576x64 ![] bcast_S_S1048576x64 (constant S_ .f32 0x3F800000#32)) (addf (broadcastInDim S1048576x64 ![] bcast_S_S1048576x64 (constant S_ .f32 0x3F800000#32)) (Host.exp (Host.negf (addf (addf (Host.dotGeneral (φ₁ := .f32) (φ₂ := .f32) dot_S1048576x64_S64x64_S1048576x64_1_0_0_1_n_n none (x0) (x4)) (Host.dotGeneral (φ₁ := .f32) (φ₂ := .f32) dot_S1048576x64_S64x64_S1048576x64_1_0_0_1_n_n none (x1) (x5))) (broadcastInDim S1048576x64 ![0, 1] bcast_S1x64_S1048576x64_0_1 (broadcastInDim S1x64 ![1] bcast_S64_S1x64_1 (x9)))))))) (Host.tanh (addf (addf (Host.dotGeneral (φ₁ := .f32) (φ₂ := .f32) dot_S1048576x64_S64x64_S1048576x64_1_0_0_1_n_n none (x0) (x6)) (Host.dotGeneral (φ₁ := .f32) (φ₂ := .f32) dot_S1048576x64_S64x64_S1048576x64_1_0_0_1_n_n none (mulf (Host.divf (broadcastInDim S1048576x64 ![] bcast_S_S1048576x64 (constant S_ .f32 0x3F800000#32)) (addf (broadcastInDim S1048576x64 ![] bcast_S_S1048576x64 (constant S_ .f32 0x3F800000#32)) (Host.exp (Host.negf (addf (addf (Host.dotGeneral (φ₁ := .f32) (φ₂ := .f32) dot_S1048576x64_S64x64_S1048576x64_1_0_0_1_n_n none (x0) (x2)) (Host.dotGeneral (φ₁ := .f32) (φ₂ := .f32) dot_S1048576x64_S64x64_S1048576x64_1_0_0_1_n_n none (x1) (x3))) (broadcastInDim S1048576x64 ![0, 1] bcast_S1x64_S1048576x64_0_1 (broadcastInDim S1x64 ![1] bcast_S64_S1x64_1 (x8)))))))) (x1)) (x7))) (broadcastInDim S1048576x64 ![0, 1] bcast_S1x64_S1048576x64_0_1 (broadcastInDim S1x64 ![1] bcast_S64_S1x64_1 (x10)))))) : FVec Ideal S1048576x64 .f32)
      = Cert.GruSpec.cell x0 x1 x2 x3 x4 x5 x6 x7 x8 x9 x10 :=
  (val_main_v36_eq (F := Ideal) x0 x1 x2 x3 x4 x5 x6 x7 x8 x9 x10).trans (ref_is_cell x0 x1 x2 x3 x4 x5 x6 x7 x8 x9 x10)

end Cert.ReferenceIdeal.RefCell

end
-- ==== Proof.lean ====
/-
  The certificate of one step of a gated recurrent cell: a kernel that packs four consecutive rows of 64 into one row of
  256 and multiplies by 256×256 matrices carrying each 64×64 weight on the block diagonal, against the plain cell
  `h' = (1 − z) ⊙ h + z ⊙ tanh(x·W_in + (r ⊙ h)·W_hn + b_n)`, `r = σ(x·W_ir + h·W_hr + b_r)`, `z = σ(x·W_iz + h·W_hz + b_z)`.
  On the extended reals the two agree entry by entry: a change of float format is the identity, the logistic function is
  by definition `1 / (1 + e^(−v))`, the zero blocks off the diagonal annihilate their terms (`0 · y = 0` for every extended
  real `y`), which leaves of each 256-term sum the 64 terms of the row's own band, and the packing is undone by the
  row-major regrouping at the end. No finiteness of the inputs is used.
  The three frames: each kernel program runs its host operations, its one region (32 grid points, the body storing one
  block) and the closing regrouping, and leaves its arguments untouched; the reference is a straight line of host
  operations. The idealization rewrote nothing, so there is nothing to preserve beyond the program's own text.
-/
import proofs.«172371_j8151847928332_2_alg».proof.Defs
import proofs.«172371_j8151847928332_2_alg».proof.Proof.Gen.Kernel
import proofs.«172371_j8151847928332_2_alg».proof.Proof.Gen.KernelIdeal
import proofs.«172371_j8151847928332_2_alg».proof.Proof.Gen.ReferenceIdeal
import proofs.«172371_j8151847928332_2_alg».proof.Proof.Gen.ReferenceIdeal.Run
import proofs.«172371_j8151847928332_2_alg».proof.Proof.Gen.ReferenceIdeal.Read
import proofs.«172371_j8151847928332_2_alg».proof.Proof.Gen.Pre_finite_inputs
import proofs.«172371_j8151847928332_2_alg».proof.Proof.BitsRun
import proofs.«172371_j8151847928332_2_alg».proof.Proof.IdealValue
import proofs.«172371_j8151847928332_2_alg».proof.Proof.IdealRowsBias
import proofs.«172371_j8151847928332_2_alg».proof.Proof.IdealWeight2
import proofs.«172371_j8151847928332_2_alg».proof.Proof.IdealWeight3
import proofs.«172371_j8151847928332_2_alg».proof.Proof.IdealWeight4
import proofs.«172371_j8151847928332_2_alg».proof.Proof.IdealWeight5
import proofs.«172371_j8151847928332_2_alg».proof.Proof.IdealWeight6
import proofs.«172371_j8151847928332_2_alg».proof.Proof.IdealWeight7
import proofs.«172371_j8151847928332_2_alg».proof.Proof.RefIsCell
import Idealize.ShloMosaic.Adequacy
import Idealize.ShloMosaic.Init

noncomputable section

namespace Cert.Proof

open Idealize.ShloMosaic Idealize.SL.Sem

/-- The word-level kernel program runs to the end, faults nowhere, and keeps its arguments. -/
theorem frame_kernel : Cert.frame_Kernel := fun m ρ _ => Cert.Kernel.Fr.frame m ρ

/-- So does its idealization. -/
theorem frame_kernel_ideal : Cert.frame_KernelIdeal := fun m ρ _ => Cert.KernelIdeal.Fr.frame m ρ

/-- The reference is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The arrays the region finds, entry by entry, on every core. -/
theorem entry (m : (ℓ : Loc Cert.KernelIdeal.nD Cert.KernelIdeal.τ Cert.KernelIdeal.sig) → Buf (Elt Ideal) ℓ) (c : Dev Cert.KernelIdeal.nD) :
    Cert.KernelIdeal.Fr.EntryArrays m c :=
  ⟨Cert.KernelIdeal.Fr.rows0_at m c, Cert.KernelIdeal.Fr.rows1_at m c,
   Cert.KernelIdeal.Fr.w2_at m c, Cert.KernelIdeal.Fr.w3_at m c, Cert.KernelIdeal.Fr.w4_at m c,
   Cert.KernelIdeal.Fr.w5_at m c, Cert.KernelIdeal.Fr.w6_at m c, Cert.KernelIdeal.Fr.w7_at m c,
   Cert.KernelIdeal.Fr.b8_at m c, Cert.KernelIdeal.Fr.b9_at m c, Cert.KernelIdeal.Fr.b10_at m c⟩

/-- From memories agreeing on the arguments both idealized programs end with the cell of those arguments in their result
    buffers: the kernel's by its run read block by block, the reference's by its run read operation by operation. -/
theorem algebraic : Cert.algebraic_KernelIdeal_ReferenceIdeal := by
  intro m ρ m' ρ' _ hagree
  refine ⟨fun c => Cert.KernelIdeal.Fr.cellOf m c, Cert.KernelIdeal.Fr.value_run m ρ (entry m), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [a0, a1, a2, a3, a4, a5, a6, a7, a8, a9, a10]
  exact Cert.ReferenceIdeal.RefCell.run_term_is_cell _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
